-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S524288 : Shape := ⟨1, ![524288]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S65536x1024 .f32) (main_arg1 : FVec F S1024x512 .f32) (main_arg2 : FVec F S512 .f32) (main_arg3 : FVec F S512x256 .f32) (main_arg4 : FVec F S256 .f32) (main_arg5 : IVec S524288 32) (main_arg6 : IVec S524288 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S65536x1024 : Shape := ⟨2, ![65536, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S524288 : Shape := ⟨1, ![524288]⟩
abbrev S_ : Shape := ⟨0, ![]⟩
abbrev S65536 : Shape := ⟨1, ![65536]⟩
abbrev S524288x1 : Shape := ⟨2, ![524288, 1]⟩
abbrev S65536x1 : Shape := ⟨2, ![65536, 1]⟩
abbrev S65536x512 : Shape := ⟨2, ![65536, 512]⟩
abbrev S2048x1024 : Shape := ⟨2, ![2048, 1024]⟩
abbrev S2048x1 : Shape := ⟨2, ![2048, 1]⟩
abbrev S2048x512 : Shape := ⟨2, ![2048, 512]⟩
abbrev S524288x512 : Shape := ⟨2, ![524288, 512]⟩
abbrev S1x512 : Shape := ⟨2, ![1, 512]⟩
abbrev S65536x256 : Shape := ⟨2, ![65536, 256]⟩
abbrev S2048x256 : Shape := ⟨2, ![2048, 256]⟩
abbrev S524288x256 : Shape := ⟨2, ![524288, 256]⟩
abbrev S1x256 : Shape := ⟨2, ![1, 256]⟩

abbrev nBuf : Space → Nat
  | .hbm => 75
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S524288, .i32⟩
  | .hbm, ⟨6, _⟩ => ⟨S524288, .i32⟩
  | .hbm, ⟨7, _⟩ => ⟨S_, .f32⟩
  | .hbm, ⟨8, _⟩ => ⟨S524288, .f32⟩
  | .hbm, ⟨9, _⟩ => ⟨S_, .f32⟩
  | .hbm, ⟨10, _⟩ => ⟨S65536, .f32⟩
  | .hbm, ⟨11, _⟩ => ⟨S524288x1, .i32⟩
  | .hbm, ⟨12, _⟩ => ⟨S65536, .f32⟩
  | .hbm, ⟨13, _⟩ => ⟨S_, .f32⟩
  | .hbm, ⟨14, _⟩ => ⟨S65536, .f32⟩
  | .hbm, ⟨15, _⟩ => ⟨S65536, .f32⟩
  | .hbm, ⟨16, _⟩ => ⟨S_, .f32⟩
  | .hbm, ⟨17, _⟩ => ⟨S65536, .f32⟩
  | .hbm, ⟨18, _⟩ => ⟨S524288x1, .i32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S65536, .f32⟩
  | .hbm, ⟨24, _⟩ => ⟨S65536, .f32⟩
  | .hbm, ⟨25, _⟩ => ⟨S65536x1, .f32⟩
  | .hbm, ⟨26, _⟩ => ⟨S65536x512, .f32⟩
  | .hbm, ⟨27, _⟩ => ⟨S_, .i32⟩
  | .hbm, ⟨28, _⟩ => ⟨S524288, .i32⟩
  | .hbm, ⟨29, _⟩ => ⟨S524288, .i1⟩
  | .hbm, ⟨30, _⟩ => ⟨S_, .i32⟩
  | .hbm, ⟨31, _⟩ => ⟨S524288, .i32⟩
  | .hbm, ⟨32, _⟩ => ⟨S524288, .i32⟩
  | .hbm, ⟨33, _⟩ => ⟨S524288, .i32⟩
  | .hbm, ⟨34, _⟩ => ⟨S524288x1, .i32⟩
  | .hbm, ⟨35, _⟩ => ⟨S524288x512, .f32⟩
  | .hbm, ⟨36, _⟩ => ⟨S_, .f32⟩
  | .hbm, ⟨37, _⟩ => ⟨S65536x512, .f32⟩
  | .hbm, ⟨38, _⟩ => ⟨S524288x1, .i32⟩
  | .hbm, ⟨39, _⟩ => ⟨S65536x512, .f32⟩
  | .hbm, ⟨40, _⟩ => ⟨S65536x1, .f32⟩
  | .hbm, ⟨41, _⟩ => ⟨S65536x512, .f32⟩
  | .hbm, ⟨42, _⟩ => ⟨S65536x512, .f32⟩
  | .hbm, ⟨43, _⟩ => ⟨S1x512, .f32⟩
  | .hbm, ⟨44, _⟩ => ⟨S65536x512, .f32⟩
  | .hbm, ⟨45, _⟩ => ⟨S65536x512, .f32⟩
  | .hbm, ⟨46, _⟩ => ⟨S_, .f32⟩
  | .hbm, ⟨47, _⟩ => ⟨S65536x512, .f32⟩
  | .hbm, ⟨48, _⟩ => ⟨S65536x512, .i1⟩
  | .hbm, ⟨49, _⟩ => ⟨S65536x512, .f32⟩
  | .hbm, ⟨50, _⟩ => ⟨S_, .f32⟩
  | .hbm, ⟨51, _⟩ => ⟨S65536x512, .f32⟩
  | .hbm, ⟨52, _⟩ => ⟨S65536x512, .f32⟩
  | .hbm, ⟨53, _⟩ => ⟨S65536x512, .f32⟩
  | .hbm, ⟨54, _⟩ => ⟨S65536x1, .f32⟩
  | .hbm, ⟨55, _⟩ => ⟨S65536x256, .f32⟩
  | .hbm, ⟨56, _⟩ => ⟨S_, .i32⟩
  | .hbm, ⟨57, _⟩ => ⟨S524288, .i32⟩
  | .hbm, ⟨58, _⟩ => ⟨S524288, .i1⟩
  | .hbm, ⟨59, _⟩ => ⟨S_, .i32⟩
  | .hbm, ⟨60, _⟩ => ⟨S524288, .i32⟩
  | .hbm, ⟨61, _⟩ => ⟨S524288, .i32⟩
  | .hbm, ⟨62, _⟩ => ⟨S524288, .i32⟩
  | .hbm, ⟨63, _⟩ => ⟨S524288x1, .i32⟩
  | .hbm, ⟨64, _⟩ => ⟨S524288x256, .f32⟩
  | .hbm, ⟨65, _⟩ => ⟨S_, .f32⟩
  | .hbm, ⟨66, _⟩ => ⟨S65536x256, .f32⟩
  | .hbm, ⟨67, _⟩ => ⟨S524288x1, .i32⟩
  | .hbm, ⟨68, _⟩ => ⟨S65536x256, .f32⟩
  | .hbm, ⟨69, _⟩ => ⟨S65536x1, .f32⟩
  | .hbm, ⟨70, _⟩ => ⟨S65536x256, .f32⟩
  | .hbm, ⟨71, _⟩ => ⟨S65536x256, .f32⟩
  | .hbm, ⟨72, _⟩ => ⟨S1x256, .f32⟩
  | .hbm, ⟨73, _⟩ => ⟨S65536x256, .f32⟩
  | .hbm, ⟨74, _⟩ => ⟨S65536x256, .f32⟩
  | .local _ .vmem, ⟨0, _⟩ => ⟨S2048x1024, .f32⟩
  | .local _ .vmem, ⟨1, _⟩ => ⟨S2048x1024, .f32⟩
  | .local _ .vmem, ⟨2, _⟩ => ⟨S2048x1, .f32⟩
  | .local _ .vmem, ⟨3, _⟩ => ⟨S2048x1, .f32⟩
  | .local _ .vmem, ⟨4, _⟩ => ⟨S1024x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x1, .f32⟩
  | .local _ .vmem, ⟨10, _⟩ => ⟨S2048x1, .f32⟩
  | .local _ .vmem, ⟨11, _⟩ => ⟨S512x256, .f32⟩
  | .local _ .vmem, ⟨12, _⟩ => ⟨S2048x256, .f32⟩
  | .local _ .vmem, ⟨13, _⟩ => ⟨S2048x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S524288 : S_.BroadcastsInDim S524288 (![] : Fin 0 → Fin S524288.rank)
  bcast_S_S65536 : S_.BroadcastsInDim S65536 (![] : Fin 0 → Fin S65536.rank)
  bcast_S524288_S524288x1_0 : S524288.BroadcastsInDim S524288x1 (![0] : Fin 1 → Fin S524288x1.rank)
  bcast_S65536_S65536x1_0 : S65536.BroadcastsInDim S65536x1 (![0] : Fin 1 → Fin S65536x1.rank)
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  bcast_S_S65536x512 : S_.BroadcastsInDim S65536x512 (![] : Fin 0 → Fin S65536x512.rank)
  bcast_S65536x1_S65536x512_0_1 : S65536x1.BroadcastsInDim S65536x512 (![0, 1] : Fin 2 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S2048x512_S2048x512 : S2048x512.ShapeCasts S2048x512
  broadcasts_S2048x1_S2048x512 : S2048x1.Broadcasts S2048x512
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S_S65536x256 : S_.BroadcastsInDim S65536x256 (![] : Fin 0 → Fin S65536x256.rank)
  bcast_S65536x1_S65536x256_0_1 : S65536x1.BroadcastsInDim S65536x256 (![0, 1] : Fin 2 → Fin S65536x256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  scatter_S65536_S524288x1_S524288_n_0_0_1_wf : ScatterDims.WF S65536 S524288x1 S524288 [] [0] [0] 1
  dot_S2048x1024_S1024x512_S2048x512_1_0_0_1_n_n_wf : DotDims.WF S2048x1024 S1024x512 S2048x512 [1] [0] [0] [1] [] []
  gather_S65536x512_S524288x1_S524288x512_1_0_n_n_0_1_1512_wf : GatherDims.WF S65536x512 S524288x1 S524288x512 [1] [0] [] [0] [] 1 ![1, 512]
  scatter_S65536x512_S524288x1_S524288x512_1_0_0_1_wf : ScatterDims.WF S65536x512 S524288x1 S524288x512 [1] [0] [0] 1
  dot_S2048x512_S512x256_S2048x256_1_0_0_1_n_n_wf : DotDims.WF S2048x512 S512x256 S2048x256 [1] [0] [0] [1] [] []
  gather_S65536x256_S524288x1_S524288x256_1_0_n_n_0_1_1256_wf : GatherDims.WF S65536x256 S524288x1 S524288x256 [1] [0] [] [0] [] 1 ![1, 256]
  scatter_S65536x256_S524288x1_S524288x256_1_0_0_1_wf : ScatterDims.WF S65536x256 S524288x1 S524288x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .f32 = 32 ∨ (Rect.block (s := S65536x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S65536x1.size a
  hwx1_1 : ∀ i : grid1.Coords, EltTy.bits .f32 = 32 ∨ (Rect.block (s := S65536x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S65536x256.size a
  hwx1_3 : ∀ i : grid1.Coords, EltTy.bits .f32 = 32 ∨ (Rect.block (s := S65536x256) S2048x256.size (cc1_transform_3 i) (hinb1_3 i)).WholeWords (EltTy.packing .f32)

variable [Facts₀]

def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def gather_S65536x512_S524288x1_S524288x512_1_0_n_n_0_1_1512 : GatherDims S65536x512 S524288x1 S524288x512 where
  offsetDims := [1]
  collapsedSliceDims := [0]
  operandBatchingDims := []
  startIndicesBatchingDims := []
  startIndexMap := [0]
  indexVectorDim := 1
  sliceSizes := ![1, 512]
  wf := gather_S65536x512_S524288x1_S524288x512_1_0_n_n_0_1_1512_wf
def scatter_S65536x512_S524288x1_S524288x512_1_0_0_1 : ScatterDims S65536x512 S524288x1 S524288x512 where
  updateWindowDims := [1]
  insertedWindowDims := [0]
  scatterDimsToOperandDims := [0]
  indexVectorDim := 1
  wf := scatter_S65536x512_S524288x1_S524288x512_1_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S65536x256_S524288x1_S524288x256_1_0_n_n_0_1_1256 : GatherDims S65536x256 S524288x1 S524288x256 where
  offsetDims := [1]
  collapsedSliceDims := [0]
  operandBatchingDims := []
  startIndicesBatchingDims := []
  startIndexMap := [0]
  indexVectorDim := 1
  sliceSizes := ![1, 256]
  wf := gather_S65536x256_S524288x1_S524288x256_1_0_n_n_0_1_1256_wf
def scatter_S65536x256_S524288x1_S524288x256_1_0_0_1 : ScatterDims S65536x256 S524288x1 S524288x256 where
  updateWindowDims := [1]
  insertedWindowDims := [0]
  scatterDimsToOperandDims := [0]
  indexVectorDim := 1
  wf := scatter_S65536x256_S524288x1_S524288x256_1_0_0_1_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x1024 : Shape := ⟨2, ![65536, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S524288 : Shape := ⟨1, ![524288]⟩
abbrev S_ : Shape := ⟨0, ![]⟩
abbrev S65536 : Shape := ⟨1, ![65536]⟩
abbrev S524288x1 : Shape := ⟨2, ![524288, 1]⟩
abbrev S65536x1 : Shape := ⟨2, ![65536, 1]⟩
abbrev S65536x512 : Shape := ⟨2, ![65536, 512]⟩
abbrev S524288x512 : Shape := ⟨2, ![524288, 512]⟩
abbrev S1x512 : Shape := ⟨2, ![1, 512]⟩
abbrev S65536x256 : Shape := ⟨2, ![65536, 256]⟩
abbrev S524288x256 : Shape := ⟨2, ![524288, 256]⟩
abbrev S1x256 : Shape := ⟨2, ![1, 256]⟩

abbrev nBuf : Space → Nat
  | .hbm => 86
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S524288, .i32⟩
  | .hbm, ⟨6, _⟩ => ⟨S524288, .i32⟩
  | .hbm, ⟨7, _⟩ => ⟨S_, .f32⟩
  | .hbm, ⟨8, _⟩ => ⟨S524288, .f32⟩
  | .hbm, ⟨9, _⟩ => ⟨S_, .f32⟩
  | .hbm, ⟨10, _⟩ => ⟨S65536, .f32⟩
  | .hbm, ⟨11, _⟩ => ⟨S524288x1, .i32⟩
  | .hbm, ⟨12, _⟩ => ⟨S65536, .f32⟩
  | .hbm, ⟨13, _⟩ => ⟨S_, .f32⟩
  | .hbm, ⟨14, _⟩ => ⟨S65536, .f32⟩
  | .hbm, ⟨15, _⟩ => ⟨S65536, .f32⟩
  | .hbm, ⟨16, _⟩ => ⟨S_, .f32⟩
  | .hbm, ⟨17, _⟩ => ⟨S65536, .f32⟩
  | .hbm, ⟨18, _⟩ => ⟨S524288x1, .i32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S65536, .f32⟩
  | .hbm, ⟨24, _⟩ => ⟨S65536, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S65536x512, .f32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S524288, .i32⟩
  | .hbm, ⟨36, _⟩ => ⟨S524288x1, .i32⟩
  | .hbm, ⟨37, _⟩ => ⟨S524288x512, .f32⟩
  | .hbm, ⟨38, _⟩ => ⟨S_, .f32⟩
  | .hbm, ⟨39, _⟩ => ⟨S65536x512, .f32⟩
  | .hbm, ⟨40, _⟩ => ⟨S524288x1, .i32⟩
  | .hbm, ⟨41, _⟩ => ⟨S65536x512, .f32⟩
  | .hbm, ⟨42, _⟩ => ⟨S65536x1, .f32⟩
  | .hbm, ⟨43, _⟩ => ⟨S65536x512, .f32⟩
  | .hbm, ⟨44, _⟩ => ⟨S65536x512, .f32⟩
  | .hbm, ⟨45, _⟩ => ⟨S1x512, .f32⟩
  | .hbm, ⟨46, _⟩ => ⟨S65536x512, .f32⟩
  | .hbm, ⟨47, _⟩ => ⟨S65536x512, .f32⟩
  | .hbm, ⟨48, _⟩ => ⟨S_, .f32⟩
  | .hbm, ⟨49, _⟩ => ⟨S65536x512, .f32⟩
  | .hbm, ⟨50, _⟩ => ⟨S65536x512, .i1⟩
  | .hbm, ⟨51, _⟩ => ⟨S_, .f32⟩
  | .hbm, ⟨52, _⟩ => ⟨S65536x512, .f32⟩
  | .hbm, ⟨53, _⟩ => ⟨S65536x512, .i1⟩
  | .hbm, ⟨54, _⟩ => ⟨S_, .f32⟩
  | .hbm, ⟨55, _⟩ => ⟨S_, .f32⟩
  | .hbm, ⟨56, _⟩ => ⟨S65536x512, .f32⟩
  | .hbm, ⟨57, _⟩ => ⟨S65536x512, .f32⟩
  | .hbm, ⟨58, _⟩ => ⟨S65536x512, .f32⟩
  | .hbm, ⟨59, _⟩ => ⟨S_, .f32⟩
  | .hbm, ⟨60, _⟩ => ⟨S65536x512, .f32⟩
  | .hbm, ⟨61, _⟩ => ⟨S65536x512, .f32⟩
  | .hbm, ⟨62, _⟩ => ⟨S65536x512, .f32⟩
  | .hbm, ⟨63, _⟩ => ⟨S65536x1, .f32⟩
  | .hbm, ⟨64, _⟩ => ⟨S65536x512, .f32⟩
  | .hbm, ⟨65, _⟩ => ⟨S65536x512, .f32⟩
  | .hbm, ⟨66, _⟩ => ⟨S65536x256, .f32⟩
  | .hbm, ⟨67, _⟩ => ⟨S_, .i32⟩
  | .hbm, ⟨68, _⟩ => ⟨S524288, .i32⟩
  | .hbm, ⟨69, _⟩ => ⟨S524288, .i1⟩
  | .hbm, ⟨70, _⟩ => ⟨S_, .i32⟩
  | .hbm, ⟨71, _⟩ => ⟨S524288, .i32⟩
  | .hbm, ⟨72, _⟩ => ⟨S524288, .i32⟩
  | .hbm, ⟨73, _⟩ => ⟨S524288, .i32⟩
  | .hbm, ⟨74, _⟩ => ⟨S524288x1, .i32⟩
  | .hbm, ⟨75, _⟩ => ⟨S524288x256, .f32⟩
  | .hbm, ⟨76, _⟩ => ⟨S_, .f32⟩
  | .hbm, ⟨77, _⟩ => ⟨S65536x256, .f32⟩
  | .hbm, ⟨78, _⟩ => ⟨S524288x1, .i32⟩
  | .hbm, ⟨79, _⟩ => ⟨S65536x256, .f32⟩
  | .hbm, ⟨80, _⟩ => ⟨S65536x1, .f32⟩
  | .hbm, ⟨81, _⟩ => ⟨S65536x256, .f32⟩
  | .hbm, ⟨82, _⟩ => ⟨S65536x256, .f32⟩
  | .hbm, ⟨83, _⟩ => ⟨S1x256, .f32⟩
  | .hbm, ⟨84, _⟩ => ⟨S65536x256, .f32⟩
  | .hbm, ⟨85, _⟩ => ⟨S65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_cst_1 : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_v4 : Ref sig .tc := ⟨.hbm, 57, rfl⟩
abbrev main_call0_v5 : Ref sig .tc := ⟨.hbm, 58, rfl⟩
abbrev main_call0_cst_2 : Ref sig .tc := ⟨.hbm, 59, rfl⟩
abbrev main_call0_v6 : Ref sig .tc := ⟨.hbm, 60, rfl⟩
abbrev main_call0_v7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_c_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S65536 : S_.BroadcastsInDim S65536 (![] : Fin 0 → Fin S65536.rank)
  bcast_S524288_S524288x1_0 : S524288.BroadcastsInDim S524288x1 (![0] : Fin 1 → Fin S524288x1.rank)
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)
  bcast_S_S65536x512 : S_.BroadcastsInDim S65536x512 (![] : Fin 0 → Fin S65536x512.rank)
  bcast_S65536x1_S65536x512_0_1 : S65536x1.BroadcastsInDim S65536x512 (![0, 1] : Fin 2 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x256 : S_.BroadcastsInDim S65536x256 (![] : Fin 0 → Fin S65536x256.rank)
  bcast_S65536x1_S65536x256_0_1 : S65536x1.BroadcastsInDim S65536x256 (![0, 1] : Fin 2 → Fin S65536x256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  scatter_S65536_S524288x1_S524288_n_0_0_1_wf : ScatterDims.WF S65536 S524288x1 S524288 [] [0] [0] 1
  dot_S65536x1024_S1024x512_S65536x512_1_0_0_1_n_n_wf : DotDims.WF S65536x1024 S1024x512 S65536x512 [1] [0] [0] [1] [] []
  gather_S65536x512_S524288x1_S524288x512_1_0_n_n_0_1_1512_wf : GatherDims.WF S65536x512 S524288x1 S524288x512 [1] [0] [] [0] [] 1 ![1, 512]
  scatter_S65536x512_S524288x1_S524288x512_1_0_0_1_wf : ScatterDims.WF S65536x512 S524288x1 S524288x512 [1] [0] [0] 1
  dot_S65536x512_S512x256_S65536x256_1_0_0_1_n_n_wf : DotDims.WF S65536x512 S512x256 S65536x256 [1] [0] [0] [1] [] []
  gather_S65536x256_S524288x1_S524288x256_1_0_n_n_0_1_1256_wf : GatherDims.WF S65536x256 S524288x1 S524288x256 [1] [0] [] [0] [] 1 ![1, 256]
  scatter_S65536x256_S524288x1_S524288x256_1_0_0_1_wf : ScatterDims.WF S65536x256 S524288x1 S524288x256 [1] [0] [0] 1

variable [Facts₀]

def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def gather_S65536x512_S524288x1_S524288x512_1_0_n_n_0_1_1512 : GatherDims S65536x512 S524288x1 S524288x512 where
  offsetDims := [1]
  collapsedSliceDims := [0]
  operandBatchingDims := []
  startIndicesBatchingDims := []
  startIndexMap := [0]
  indexVectorDim := 1
  sliceSizes := ![1, 512]
  wf := gather_S65536x512_S524288x1_S524288x512_1_0_n_n_0_1_1512_wf
def scatter_S65536x512_S524288x1_S524288x512_1_0_0_1 : ScatterDims S65536x512 S524288x1 S524288x512 where
  updateWindowDims := [1]
  insertedWindowDims := [0]
  scatterDimsToOperandDims := [0]
  indexVectorDim := 1
  wf := scatter_S65536x512_S524288x1_S524288x512_1_0_0_1_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def gather_S65536x256_S524288x1_S524288x256_1_0_n_n_0_1_1256 : GatherDims S65536x256 S524288x1 S524288x256 where
  offsetDims := [1]
  collapsedSliceDims := [0]
  operandBatchingDims := []
  startIndicesBatchingDims := []
  startIndexMap := [0]
  indexVectorDim := 1
  sliceSizes := ![1, 256]
  wf := gather_S65536x256_S524288x1_S524288x256_1_0_n_n_0_1_1256_wf
def scatter_S65536x256_S524288x1_S524288x256_1_0_0_1 : ScatterDims S65536x256 S524288x1 S524288x256 where
  updateWindowDims := [1]
  insertedWindowDims := [0]
  scatterDimsToOperandDims := [0]
  indexVectorDim := 1
  wf := scatter_S65536x256_S524288x1_S524288x256_1_0_0_1_wf

class Facts : Prop extends Facts₀ where

variable [Facts]
-- ==== Proof.Spec.lean ====
/-
  The mathematics both programs compute, written once as stage functions of whole arrays.

  A two-layer graph convolution with symmetric degree normalisation. With `count idx` the number of edges whose
  endpoint is a given node, `invDeg idx = 1 / sqrt (max (count idx) 1)`. One layer maps a node table `X` to
    `agg (rowScaledMatmul X (col (invDeg src)) W) src dst (invDeg dst) b`:
  each row of `X` is scaled by its node's out-degree factor and multiplied by the weights (`rowScaledMatmul`:
  entry (p, q) is the sum over c of (X(p,c) * s(p,0)) * W(c,q)); the rows are gathered along the edges' sources,
  added up at the edges' destinations, scaled by the in-degree factor and shifted by the bias (`agg512`, `agg256`).
  Between the layers the exponential linear unit `elu x = if x > 0 then x else exp x - 1` is applied entry by entry.
  The gather, the scatter-add and the reciprocal square root are carried as the host operations they are and never
  opened: both programs apply them to equal arrays.
-/
import proofs.«168157_j4982162063670_1_alg».proof.Proof.Gen.KernelIdeal
import Idealize.ShloMosaic.Lib.ValueIdx
import Idealize.ShloMosaic.PureOps.Ideal

noncomputable section

open scoped BigOperators

namespace Cert.Spec

open Cert.KernelIdeal Cert.KernelIdeal.Gen Idealize.ShloMosaic Idealize.ShloMosaic.ValueIdx

variable {F : FTy → Type} [FloatOps F]

/-- A length-65536 vector kept as a 65536 x 1 column. -/
def col (s : FVec F S65536 .f32) : FVec F S65536x1 .f32 :=
  broadcastInDim S65536x1 ![0] bcast_S65536_S65536x1_0 s

/-- `1 / sqrt (max (count idx) 1)` per node: the edges' endpoints `idx` counted by a scatter-add of ones into zeros. -/
def invDeg (idx : IVec S524288 32) : FVec F S65536 .f32 :=
  Host.rsqrt (F := F) (maximumf
    (Host.scatterAdd (F := F) scatter_S65536_S524288x1_S524288_n_0_0_1
      (broadcastInDim S65536 ![] bcast_S_S65536 (constant (F := F) S_ .f32 0x00000000#32))
      (broadcastInDim S524288x1 ![0] bcast_S524288_S524288x1_0 idx)
      (broadcastInDim S524288 ![] bcast_S_S524288 (constant (F := F) S_ .f32 0x3F800000#32)))
    (broadcastInDim S65536 ![] bcast_S_S65536 (constant (F := F) S_ .f32 0x3F800000#32)))

/-- A negative position counted from the end (numpy's indexing rule), as the gather's start positions. -/
def wrapIdx (src : IVec S524288 32) : IVec S524288 32 :=
  select (cmpi .slt src (broadcastInDim S524288 ![] bcast_S_S524288 (constantI S_ 32 0#32)))
    (addi src (broadcastInDim S524288 ![] bcast_S_S524288 (constantI S_ 32 65536#32))) src

/-- Message passing on 512 columns: rows of `M` gathered at the sources, added at the destinations, each row scaled
    by `sIn`, the bias row `b` added. -/
def agg512 (M : FVec F S65536x512 .f32) (src dst : IVec S524288 32) (sIn : FVec F S65536 .f32) (b : FVec F S512 .f32) :
    FVec F S65536x512 .f32 :=
  addf (mulf
      (Host.scatterAdd (F := F) scatter_S65536x512_S524288x1_S524288x512_1_0_0_1
        (broadcastInDim S65536x512 ![] bcast_S_S65536x512 (constant (F := F) S_ .f32 0x00000000#32))
        (broadcastInDim S524288x1 ![0] bcast_S524288_S524288x1_0 dst)
        (Host.gather gather_S65536x512_S524288x1_S524288x512_1_0_n_n_0_1_1512 M
          (broadcastInDim S524288x1 ![0] bcast_S524288_S524288x1_0 (wrapIdx src))))
      (broadcastInDim S65536x512 ![0, 1] bcast_S65536x1_S65536x512_0_1 (col sIn)))
    (broadcastInDim S65536x512 ![0, 1] bcast_S1x512_S65536x512_0_1 (broadcastInDim S1x512 ![1] bcast_S512_S1x512_1 b))

/-- The same on 256 columns. -/
def agg256 (M : FVec F S65536x256 .f32) (src dst : IVec S524288 32) (sIn : FVec F S65536 .f32) (b : FVec F S256 .f32) :
    FVec F S65536x256 .f32 :=
  addf (mulf
      (Host.scatterAdd (F := F) scatter_S65536x256_S524288x1_S524288x256_1_0_0_1
        (broadcastInDim S65536x256 ![] bcast_S_S65536x256 (constant (F := F) S_ .f32 0x00000000#32))
        (broadcastInDim S524288x1 ![0] bcast_S524288_S524288x1_0 dst)
        (Host.gather gather_S65536x256_S524288x1_S524288x256_1_0_n_n_0_1_1256 M
          (broadcastInDim S524288x1 ![0] bcast_S524288_S524288x1_0 (wrapIdx src))))
      (broadcastInDim S65536x256 ![0, 1] bcast_S65536x1_S65536x256_0_1 (col sIn)))
    (broadcastInDim S65536x256 ![0, 1] bcast_S1x256_S65536x256_0_1 (broadcastInDim S1x256 ![1] bcast_S256_S1x256_1 b))

/-- The exponential linear unit spelled with the exponential: `x` where `x > 0`, `exp x - 1` elsewhere. -/
def elu (x : FVec F S65536x512 .f32) : FVec F S65536x512 .f32 :=
  select (cmpf .ogt x (broadcastInDim S65536x512 ![] bcast_S_S65536x512 (constant (F := F) S_ .f32 0x00000000#32))) x
    (subf (Host.exp (F := F) x) (broadcastInDim S65536x512 ![] bcast_S_S65536x512 (constant (F := F) S_ .f32 0x3F800000#32)))

/-- Rows scaled, then multiplied by the weights, over the extended reals: entry (p, q) is the sum over c of
    `(A(p,c) * s(p,0)) * B(c,q)`, for any sizes. -/
def rowScaledMatmul {a k b : Nat} (A : FVec Ideal ⟨2, ![a, k]⟩ .f32) (s : FVec Ideal ⟨2, ![a, 1]⟩ .f32)
    (B : FVec Ideal ⟨2, ![k, b]⟩ .f32) : FVec Ideal ⟨2, ![a, b]⟩ .f32 :=
  fun i => ∑ c : Fin k, (A (ix2 (n0 := a) (n1 := k) (i 0) c) * s (ix2 (n0 := a) (n1 := 1) (i 0) 0))
    * B (ix2 (n0 := k) (n1 := b) c (i 1))

/-- The whole network as one function of the seven argument arrays, over the extended reals. -/
def net (h : FVec Ideal S65536x1024 .f32) (W1 : FVec Ideal S1024x512 .f32) (b1 : FVec Ideal S512 .f32)
    (W2 : FVec Ideal S512x256 .f32) (b2 : FVec Ideal S256 .f32) (src dst : IVec S524288 32) : FVec Ideal S65536x256 .f32 :=
  agg256 (rowScaledMatmul (elu (agg512 (rowScaledMatmul h (col (invDeg src)) W1) src dst (invDeg dst) b1))
    (col (invDeg src)) W2) src dst (invDeg dst) b2

end Cert.Spec

end
-- ==== Proof.KernelRun.lean ====
/-
  The idealized kernel program's run, with the buffer that holds its result named, and the contents of the buffers
  its two kernel regions and its last stretch of host operations read, written in terms of the memory at launch.

  The program is seven segments: host operations that compute the two degree factors, the first scaled product (a
  kernel region), host operations that pass the product along the edges and apply the exponential linear unit, the
  second scaled product (a kernel region), and host operations that pass that product along the edges. The buffer
  contents at each segment boundary are a fold from the launch memory; here each buffer a later segment reads is
  walked back through that fold: a stretch of host operations rewrites only the buffers its operations write, and a
  kernel region rewrites only its own arrays.
-/
import proofs.«168157_j4982162063670_1_alg».proof.Proof.Gen.KernelIdeal.Frame
import proofs.«168157_j4982162063670_1_alg».proof.Proof.Spec
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, the result buffer named -/

set_option backward.isDefEq.respectTransparency.types false in
/-- At the compiled mesh, from any memory with zero counters, every weakly fair execution of the program on the
    TensorCores terminates, and in every final state the result buffer holds the last boundary's contents at it and
    every argument array is as launched. -/
theorem run_named : θ_run defs (onTc (τ := τ) (main (F := F))) ⟨m, fun _ => 0, ρ⟩ (fun r => ∀ c : Dev nD,
      r.2.mem ((c.tc : Thread nD τ).loc main_v54) = Gen.W7 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v54 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

/-! ## The stretches of host operations, read at any contents

Each stretch's fold computes: at the buffer an operation writes, the operation's function of its operands' contents;
at any other buffer, what was there. The stage functions are those compositions by name. -/

section Stretches

variable (V : Valuation τ sig (Elt F))

/-- The last stretch leaves at the result buffer the 256-column message passing of the second product, along the
    sources and destinations, scaled by the in-degree factor and shifted by the second bias. -/
theorem tail_v54 : StableHlo.after hostOps2 V (Proc.devRef .tc main_v54)
    = Spec.agg256 (V (Proc.devRef .tc main_v38)) (V (Proc.devRef .tc main_arg5)) (V (Proc.devRef .tc main_arg6))
        (V (Proc.devRef .tc main_v12)) (V (Proc.devRef .tc main_arg4)) := by
  after_results_simp
  rfl

/-- The stretches between the two regions leave the exponential linear unit of the 512-column message passing of the
    first product. -/
theorem mid_v36 : StableHlo.after hostOps1_2 (StableHlo.after hostOps1_1 (StableHlo.after hostOps1 V)) (Proc.devRef .tc main_v36)
    = Spec.elu (Spec.agg512 (V (Proc.devRef .tc main_v14)) (V (Proc.devRef .tc main_arg5)) (V (Proc.devRef .tc main_arg6))
        (V (Proc.devRef .tc main_v12)) (V (Proc.devRef .tc main_arg2))) := by
  after_results_simp
  rfl

/-- … and the out-degree factor as a column. -/
theorem mid_v37 : StableHlo.after hostOps1_2 (StableHlo.after hostOps1_1 (StableHlo.after hostOps1 V)) (Proc.devRef .tc main_v37)
    = Spec.col (V (Proc.devRef .tc main_v11)) := by
  after_results_simp
  rfl

/-- The first stretch leaves the out-degree factor as a column, … -/
theorem pre_v13 : StableHlo.after hostOps0 V (Proc.devRef .tc main_v13) = Spec.col (Spec.invDeg (V (Proc.devRef .tc main_arg5))) := by
  after_results
  rfl

/-- … the out-degree factor (of the sources), … -/
theorem pre_v11 : StableHlo.after hostOps0 V (Proc.devRef .tc main_v11) = Spec.invDeg (V (Proc.devRef .tc main_arg5)) := by
  after_results
  rfl

/-- … and the in-degree factor (of the destinations). -/
theorem pre_v12 : StableHlo.after hostOps0 V (Proc.devRef .tc main_v12) = Spec.invDeg (V (Proc.devRef .tc main_arg6)) := by
  after_results
  rfl

end Stretches

/-! ## The buffers the regions and the last stretch read, in terms of the launch memory -/

/-- A buffer that none of a stretch's operations writes keeps its contents through the stretch: each operation writes
    one buffer, and the buffer in question is a different reference from every one of them. -/
local macro "stretch_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

section Composed

variable (c : Dev nD)

/-! ### Up to the first region: the arguments as launched, the degree factors computed -/

theorem W1_main_arg0 : W1 m ρ c (Proc.devRef .tc main_arg0) = m ((c : Thread nD τ).loc main_arg0) := by
  have h : W1 m ρ c (Proc.devRef .tc main_arg0) = W0 m ρ c (Proc.devRef .tc main_arg0) := by stretch_keeps hostOps0
  exact h
theorem W1_main_arg1 : W1 m ρ c (Proc.devRef .tc main_arg1) = m ((c : Thread nD τ).loc main_arg1) := by
  have h : W1 m ρ c (Proc.devRef .tc main_arg1) = W0 m ρ c (Proc.devRef .tc main_arg1) := by stretch_keeps hostOps0
  exact h
theorem W1_main_arg2 : W1 m ρ c (Proc.devRef .tc main_arg2) = m ((c : Thread nD τ).loc main_arg2) := by
  have h : W1 m ρ c (Proc.devRef .tc main_arg2) = W0 m ρ c (Proc.devRef .tc main_arg2) := by stretch_keeps hostOps0
  exact h
theorem W1_main_arg3 : W1 m ρ c (Proc.devRef .tc main_arg3) = m ((c : Thread nD τ).loc main_arg3) := by
  have h : W1 m ρ c (Proc.devRef .tc main_arg3) = W0 m ρ c (Proc.devRef .tc main_arg3) := by stretch_keeps hostOps0
  exact h
theorem W1_main_arg4 : W1 m ρ c (Proc.devRef .tc main_arg4) = m ((c : Thread nD τ).loc main_arg4) := by
  have h : W1 m ρ c (Proc.devRef .tc main_arg4) = W0 m ρ c (Proc.devRef .tc main_arg4) := by stretch_keeps hostOps0
  exact h
theorem W1_main_arg5 : W1 m ρ c (Proc.devRef .tc main_arg5) = m ((c : Thread nD τ).loc main_arg5) := by
  have h : W1 m ρ c (Proc.devRef .tc main_arg5) = W0 m ρ c (Proc.devRef .tc main_arg5) := by stretch_keeps hostOps0
  exact h
theorem W1_main_arg6 : W1 m ρ c (Proc.devRef .tc main_arg6) = m ((c : Thread nD τ).loc main_arg6) := by
  have h : W1 m ρ c (Proc.devRef .tc main_arg6) = W0 m ρ c (Proc.devRef .tc main_arg6) := by stretch_keeps hostOps0
  exact h

theorem W1_main_v11 : W1 m ρ c (Proc.devRef .tc main_v11) = Spec.invDeg (m ((c : Thread nD τ).loc main_arg5)) := pre_v11 (W0 m ρ c)
theorem W1_main_v12 : W1 m ρ c (Proc.devRef .tc main_v12) = Spec.invDeg (m ((c : Thread nD τ).loc main_arg6)) := pre_v12 (W0 m ρ c)
theorem W1_main_v13 : W1 m ρ c (Proc.devRef .tc main_v13) = Spec.col (Spec.invDeg (m ((c : Thread nD τ).loc main_arg5))) := pre_v13 (W0 m ρ c)

/-- The first region reads the node table, the first weights and the out-degree column as follows. -/
theorem V1_arg0 : Gen.V1 m ρ c main_arg0 = m ((c : Thread nD τ).loc main_arg0) := W1_main_arg0 m ρ c
theorem V1_arg1 : Gen.V1 m ρ c main_arg1 = m ((c : Thread nD τ).loc main_arg1) := W1_main_arg1 m ρ c
theorem V1_v13 : Gen.V1 m ρ c main_v13 = Spec.col (Spec.invDeg (m ((c : Thread nD τ).loc main_arg5))) := W1_main_v13 m ρ c

/-! ### Across the first region: it rewrites its own four arrays only -/

theorem W2_main_v14 : W2 m ρ c (Proc.devRef .tc main_v14) = (Gen.dat0 (Gen.V1 m ρ) c).arrAt 3 cfg0.N := W2_arr m ρ c 3
theorem W2_main_arg2 : W2 m ρ c (Proc.devRef .tc main_arg2) = m ((c : Thread nD τ).loc main_arg2) :=
  (W2_of_ne m ρ c main_arg2 (by decide)).trans (W1_main_arg2 m ρ c)
theorem W2_main_arg3 : W2 m ρ c (Proc.devRef .tc main_arg3) = m ((c : Thread nD τ).loc main_arg3) :=
  (W2_of_ne m ρ c main_arg3 (by decide)).trans (W1_main_arg3 m ρ c)
theorem W2_main_arg4 : W2 m ρ c (Proc.devRef .tc main_arg4) = m ((c : Thread nD τ).loc main_arg4) :=
  (W2_of_ne m ρ c main_arg4 (by decide)).trans (W1_main_arg4 m ρ c)
theorem W2_main_arg5 : W2 m ρ c (Proc.devRef .tc main_arg5) = m ((c : Thread nD τ).loc main_arg5) :=
  (W2_of_ne m ρ c main_arg5 (by decide)).trans (W1_main_arg5 m ρ c)
theorem W2_main_arg6 : W2 m ρ c (Proc.devRef .tc main_arg6) = m ((c : Thread nD τ).loc main_arg6) :=
  (W2_of_ne m ρ c main_arg6 (by decide)).trans (W1_main_arg6 m ρ c)
theorem W2_main_v11 : W2 m ρ c (Proc.devRef .tc main_v11) = Spec.invDeg (m ((c : Thread nD τ).loc main_arg5)) :=
  (W2_of_ne m ρ c main_v11 (by decide)).trans (W1_main_v11 m ρ c)
theorem W2_main_v12 : W2 m ρ c (Proc.devRef .tc main_v12) = Spec.invDeg (m ((c : Thread nD τ).loc main_arg6)) :=
  (W2_of_ne m ρ c main_v12 (by decide)).trans (W1_main_v12 m ρ c)

/-! ### Between the regions -/

theorem W5_main_arg3 : W5 m ρ c (Proc.devRef .tc main_arg3) = m ((c : Thread nD τ).loc main_arg3) :=
  calc W5 m ρ c (Proc.devRef .tc main_arg3)
    _ = W4 m ρ c (Proc.devRef .tc main_arg3) := by stretch_keeps hostOps1_2
    _ = W3 m ρ c (Proc.devRef .tc main_arg3) := by stretch_keeps hostOps1_1
    _ = W2 m ρ c (Proc.devRef .tc main_arg3) := by stretch_keeps hostOps1
    _ = m ((c : Thread nD τ).loc main_arg3) := W2_main_arg3 m ρ c
theorem W5_main_arg4 : W5 m ρ c (Proc.devRef .tc main_arg4) = m ((c : Thread nD τ).loc main_arg4) :=
  calc W5 m ρ c (Proc.devRef .tc main_arg4)
    _ = W4 m ρ c (Proc.devRef .tc main_arg4) := by stretch_keeps hostOps1_2
    _ = W3 m ρ c (Proc.devRef .tc main_arg4) := by stretch_keeps hostOps1_1
    _ = W2 m ρ c (Proc.devRef .tc main_arg4) := by stretch_keeps hostOps1
    _ = m ((c : Thread nD τ).loc main_arg4) := W2_main_arg4 m ρ c
theorem W5_main_arg5 : W5 m ρ c (Proc.devRef .tc main_arg5) = m ((c : Thread nD τ).loc main_arg5) :=
  calc W5 m ρ c (Proc.devRef .tc main_arg5)
    _ = W4 m ρ c (Proc.devRef .tc main_arg5) := by stretch_keeps hostOps1_2
    _ = W3 m ρ c (Proc.devRef .tc main_arg5) := by stretch_keeps hostOps1_1
    _ = W2 m ρ c (Proc.devRef .tc main_arg5) := by stretch_keeps hostOps1
    _ = m ((c : Thread nD τ).loc main_arg5) := W2_main_arg5 m ρ c
theorem W5_main_arg6 : W5 m ρ c (Proc.devRef .tc main_arg6) = m ((c : Thread nD τ).loc main_arg6) :=
  calc W5 m ρ c (Proc.devRef .tc main_arg6)
    _ = W4 m ρ c (Proc.devRef .tc main_arg6) := by stretch_keeps hostOps1_2
    _ = W3 m ρ c (Proc.devRef .tc main_arg6) := by stretch_keeps hostOps1_1
    _ = W2 m ρ c (Proc.devRef .tc main_arg6) := by stretch_keeps hostOps1
    _ = m ((c : Thread nD τ).loc main_arg6) := W2_main_arg6 m ρ c
theorem W5_main_v12 : W5 m ρ c (Proc.devRef .tc main_v12) = Spec.invDeg (m ((c : Thread nD τ).loc main_arg6)) :=
  calc W5 m ρ c (Proc.devRef .tc main_v12)
    _ = W4 m ρ c (Proc.devRef .tc main_v12) := by stretch_keeps hostOps1_2
    _ = W3 m ρ c (Proc.devRef .tc main_v12) := by stretch_keeps hostOps1_1
    _ = W2 m ρ c (Proc.devRef .tc main_v12) := by stretch_keeps hostOps1
    _ = Spec.invDeg (m ((c : Thread nD τ).loc main_arg6)) := W2_main_v12 m ρ c

/-- The second region reads the activated first layer, the out-degree column and the second weights as follows. -/
theorem V5_v36 : Gen.V5 m ρ c main_v36
    = Spec.elu (Spec.agg512 ((Gen.dat0 (Gen.V1 m ρ) c).arrAt 3 cfg0.N) (m ((c : Thread nD τ).loc main_arg5)) (m ((c : Thread nD τ).loc main_arg6))
        (Spec.invDeg (m ((c : Thread nD τ).loc main_arg6))) (m ((c : Thread nD τ).loc main_arg2))) := by
  have h := mid_v36 (W2 m ρ c)
  rw [W2_main_v14 m ρ c, W2_main_arg5 m ρ c, W2_main_arg6 m ρ c, W2_main_v12 m ρ c, W2_main_arg2 m ρ c] at h
  exact h
theorem V5_v37 : Gen.V5 m ρ c main_v37 = Spec.col (Spec.invDeg (m ((c : Thread nD τ).loc main_arg5))) := by
  have h := mid_v37 (W2 m ρ c)
  rw [W2_main_v11 m ρ c] at h
  exact h
theorem V5_arg3 : Gen.V5 m ρ c main_arg3 = m ((c : Thread nD τ).loc main_arg3) := W5_main_arg3 m ρ c

/-! ### Across the second region, and the last stretch -/

theorem W6_main_v38 : W6 m ρ c (Proc.devRef .tc main_v38) = (Gen.dat1 (Gen.V5 m ρ) c).arrAt 3 cfg1.N := W6_arr m ρ c 3
theorem W6_main_arg4 : W6 m ρ c (Proc.devRef .tc main_arg4) = m ((c : Thread nD τ).loc main_arg4) :=
  (W6_of_ne m ρ c main_arg4 (by decide)).trans (W5_main_arg4 m ρ c)
theorem W6_main_arg5 : W6 m ρ c (Proc.devRef .tc main_arg5) = m ((c : Thread nD τ).loc main_arg5) :=
  (W6_of_ne m ρ c main_arg5 (by decide)).trans (W5_main_arg5 m ρ c)
theorem W6_main_arg6 : W6 m ρ c (Proc.devRef .tc main_arg6) = m ((c : Thread nD τ).loc main_arg6) :=
  (W6_of_ne m ρ c main_arg6 (by decide)).trans (W5_main_arg6 m ρ c)
theorem W6_main_v12 : W6 m ρ c (Proc.devRef .tc main_v12) = Spec.invDeg (m ((c : Thread nD τ).loc main_arg6)) :=
  (W6_of_ne m ρ c main_v12 (by decide)).trans (W5_main_v12 m ρ c)

/-- The result buffer at the end of the run: the 256-column message passing of the second region's product. -/
theorem W7_v54 : Gen.W7 m ρ c (Proc.devRef .tc main_v54)
    = Spec.agg256 ((Gen.dat1 (Gen.V5 m ρ) c).arrAt 3 cfg1.N) (m ((c : Thread nD τ).loc main_arg5)) (m ((c : Thread nD τ).loc main_arg6))
        (Spec.invDeg (m ((c : Thread nD τ).loc main_arg6))) (m ((c : Thread nD τ).loc main_arg4)) := by
  have h := tail_v54 (W6 m ρ c)
  rw [W6_main_v38 m ρ c, W6_main_arg5 m ρ c, W6_main_arg6 m ρ c, W6_main_v12 m ρ c, W6_main_arg4 m ρ c] at h
  exact h

end Composed

end Cert.KernelIdeal.Run

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibHostForms.lean ====
/-
  Readings, at an entry, of host operations that spread a vector over a matrix or multiply two matrices, for any
  sizes.

  * A length-`a` vector laid out as an `a × 1` column (a broadcast along a new unit axis) and then spread over `b`
    columns reads, at `(p, q)`, the vector at `p`.
  * A length-`b` vector laid out as a `1 × b` row and then spread over `a` rows reads, at `(p, q)`, the vector at `q`.
  * The two steps of the first one at a time; the host's logarithm at an entry; the zero word added to a sum.
  * A scalar spread over any shape reads the scalar at every entry.
  * The host's matrix product of an `M × K` table with a `K × N` matrix, for any dimension numbers that contract the
    left columns with the right rows and batch nothing, reads at `(p, q)` the sum over `c` of
    `A (p, c) * B (c, q)` over the extended reals.
-/
import Idealize.ShloMosaic.Lib.Pipeline.Value
import Idealize.ShloMosaic.Lib.ValueIdx
import Idealize.ShloMosaic.PureOps.Ideal.Laws

noncomputable section

open scoped BigOperators

namespace Cert.Lib.HostForms

open Idealize.ShloMosaic Idealize.ShloMosaic.ValueIdx

variable {α : Type}

/-- A vector kept as a column and spread along the rows reads, at `(p, q)`, the vector at `p`. -/
theorem bcast_col_chain_apply {a b : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![a, 1]⟩ ![0] h1 d) (ix2 p q) = d (ix1 p) := by
  refine (broadcastInDim_apply ![0, 1] h2 _ (ix2 p q) (ix2 p (0 : Fin 1)) fun ax => ?_).trans
    (broadcastInDim_apply ![0] h1 d (ix2 p (0 : Fin 1)) (ix1 p) fun ax => ?_)
  · match ax with
    | ⟨0, _⟩ =>
      show p.val = if a = 1 then 0 else p.val
      split
      · have := p.isLt; omega
      · rfl
    | ⟨1, _⟩ =>
      show (0 : ℕ) = if (1 : ℕ) = 1 then 0 else q.val
      rw [if_pos rfl]
  · match ax with
    | ⟨0, _⟩ =>
      show p.val = if a = 1 then 0 else p.val
      split
      · have := p.isLt; omega
      · rfl

/-- A vector kept as a row and spread down the rows reads, at `(p, q)`, the vector at `q`. -/
theorem bcast_row_chain_apply {a b : ℕ} (v : (⟨1, ![b]⟩ : Shape).Idx → α)
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- An `a × 1` column spread over `b` columns reads, at `(p, q)`, the column's entry of row `p`. -/
theorem bcast_col_spread_apply {a b : ℕ} (v : (⟨2, ![a, 1]⟩ : Shape).Idx → α)
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 v (ix2 p q) = v (ix2 p (0 : Fin 1)) := by
  refine broadcastInDim_apply ![0, 1] h2 v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A length-`a` vector kept as an `a × 1` column reads, at `(p, u)`, the vector at `p`. -/
theorem bcast_vec_col_apply {a : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (p : Fin a) (u : Fin 1) :
    broadcastInDim ⟨2, ![a, 1]⟩ ![0] h1 d (ix2 p u) = d (ix1 p) := by
  refine broadcastInDim_apply ![0] h1 d (ix2 p u) (ix1 p) fun ax => ?_
  match ax with
  | ⟨0, _⟩ =>
    show p.val = if a = 1 then 0 else p.val
    split
    · have := p.isLt; omega
    · rfl

/-- The host's logarithm of a vector read at an entry. -/
theorem hostLog_apply {s : Shape} {φ : FTy} (x : FVec Ideal s φ) (i : s.Idx) : Host.log x i = Ideal.log (x i) := rfl

/-- The zero word in front of a sum adds nothing. -/
theorem zero_word_add (v : FVec Ideal ⟨0, ![]⟩ .f32) (hv : v = constant (F := Ideal) ⟨0, ![]⟩ .f32 0x00000000#32)
    (j : (⟨0, ![]⟩ : Shape).Idx) (s : EReal) : v j + s = s := by
  subst hv
  show Ideal.ofBits .f32 0x00000000#32 + s = s
  rw [Ideal.ofBits_zero_f32, zero_add]

/-- A scalar spread over any shape reads, at every entry, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- The host's product of an `M × K` table with a `K × N` matrix reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  show FloatOps.dotGeneral (DotDims.plain M K N) prec .single A B (ix2 p q) = _
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.HostForms

end
-- ==== Proof.Forms.lean ====
/-
  The two spellings of "scale each row, then multiply by the weights", each read at an entry, for any sizes.

  A kernel body narrows both operands to a shorter float format (the identity over the extended reals), spreads the
  a x 1 column of row factors along the lanes, multiplies entry by entry and contracts into a zero accumulator; the
  host spreads the same column with a broadcast and contracts with a dot_general. Entry (p, q) of either is
    the sum over c of (A(p,c) * s(p,0)) * B(c,q),
  the same sum term by term, so no law of the extended reals beyond reading the operations is needed.
-/
import proofs.«168157_j4982162063670_1_alg».proof.Proof.Spec
import proofs.«168157_j4982162063670_1_alg».proof.Proof.LibTwoBlocks
import proofs.«168157_j4982162063670_1_alg».proof.Proof.LibRowOps
import proofs.«168157_j4982162063670_1_alg».proof.Proof.LibHostForms

noncomputable section

open scoped BigOperators

namespace Cert.Forms

open Idealize.ShloMosaic Idealize.ShloMosaic.ValueIdx

/-- The kernel body's product at an entry: operands narrowed, the column of row factors spread along the lanes,
    contracted into zero. -/
theorem body_apply {a k b : ℕ} (D : DotDims ⟨2, ![a, k]⟩ ⟨2, ![k, b]⟩ ⟨2, ![a, b]⟩) (hD : D = DotDims.plain a k b)
    (hb : (⟨2, ![a, 1]⟩ : Shape).Broadcasts ⟨2, ![a, k]⟩) (hlt : FTy.bits .bf16 < FTy.bits .f32)
    (x0 : FVec Ideal ⟨2, ![a, k]⟩ .f32) (x1 : FVec Ideal ⟨2, ![a, 1]⟩ .f32) (x2 : FVec Ideal ⟨2, ![k, b]⟩ .f32)
    (p : Fin a) (q : Fin b) :
    matmul D none (truncf .bf16 (mulf x0 (broadcastTo ⟨2, ![a, k]⟩ x1 hb)) hlt) (truncf .bf16 x2 hlt)
        (constant ⟨2, ![a, b]⟩ .f32 0x00000000#32) (ix2 p q)
      = ∑ c : Fin k, (x0 (ix2 p c) * x1 (ix2 p (0 : Fin 1))) * x2 (ix2 c q) := by
  rw [Cert.Lib.TwoBlocks.plain_matmul_zero_apply D hD]
  refine Finset.sum_congr rfl fun c _ => ?_
  rw [truncf_apply, truncf_apply, mulf_apply, Cert.Lib.RowOps.broadcastTo_a1_ab_apply]

/-- The host's product is the same function of the three arrays. -/
theorem host_eq {a k b : ℕ} (D : DotDims ⟨2, ![a, k]⟩ ⟨2, ![k, b]⟩ ⟨2, ![a, b]⟩) (hD : D = DotDims.plain a k b)
    (h2 : (⟨2, ![a, 1]⟩ : Shape).BroadcastsInDim ⟨2, ![a, k]⟩ (![0, 1] : Fin 2 → Fin (⟨2, ![a, k]⟩ : Shape).rank))
    (A : FVec Ideal ⟨2, ![a, k]⟩ .f32) (s : FVec Ideal ⟨2, ![a, 1]⟩ .f32) (B : FVec Ideal ⟨2, ![k, b]⟩ .f32) :
    Host.dotGeneral D none (mulf A (broadcastInDim ⟨2, ![a, k]⟩ ![0, 1] h2 s)) B = Cert.Spec.rowScaledMatmul A s B := by
  funext i
  obtain ⟨p, q, rfl⟩ : ∃ (p : Fin a) (q : Fin b), i = ix2 p q := ⟨i 0, i 1, eq_ix2 i⟩
  rw [Cert.Lib.HostForms.plain_dotGeneral_apply D hD]
  unfold Cert.Spec.rowScaledMatmul
  refine Finset.sum_congr rfl fun c _ => ?_
  rw [mulf_apply, Cert.Lib.HostForms.bcast_col_spread_apply]
  rfl

end Cert.Forms

end
-- ==== Proof.Region0.lean ====
/-
  Region 0 (the row-scaled product of layer 1) as ONE function of the arrays it finds.

  The grid has 32 points; point t holds rows t*2048 ... t*2048+2047 of the 65536 x 1024 table and of the column of
  row factors, the whole 1024 x 512 weight matrix, and writes back rows t*2048 ... of the result. Entry (p, q) of the block
  the body leaves is the sum over c of (X(p,c) * s(p,0)) * W(c,q) of ITS rows, which is the entry of
  `rowScaledMatmul` of the whole arrays at row t*2048+p; the 32 blocks tile the result, so the array ends holding
  `rowScaledMatmul` everywhere.
-/
import proofs.«168157_j4982162063670_1_alg».proof.Proof.Gen.KernelIdeal.Frame
import proofs.«168157_j4982162063670_1_alg».proof.Proof.Forms
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry of the block: the sum over the shared axis of scaled row entry times weight. -/
theorem pay_apply (x0 : Vec Ideal S2048x1024 .f32) (x1 : Vec Ideal S2048x1 .f32) (x2 : Vec Ideal S1024x512 .f32)
    (p : Fin 2048) (q : Fin 512) :
    k0_pay1 (F := Ideal) x0 x1 x2 (ix2 p q) = ∑ c : Fin 1024, (x0 (ix2 p c) * x1 (ix2 p (0 : Fin 1))) * x2 (ix2 c q) := by
  unfold k0_pay1
  rw [shapeCast_self]
  exact Cert.Forms.body_apply _ rfl _ _ x0 x1 x2 p q

/-- Where each window's block sits at point `t`, decided over the 32 points: the table's, the column's and the result's
    blocks share their row block, every other block coordinate is 0. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every row block is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- What point `t` writes back is its block of `rowScaledMatmul` of the three arrays as the region finds them. -/
theorem flushed_eq (c : Dev nD) (t : Fin cfg0.N) :
    (dat0 V c).flushed 3 t = ((cfg0.win 3).blk t).view.read (Elt Ideal)
      (Cert.Spec.rowScaledMatmul (V c main_arg0) (V c main_v13) (V c main_arg1)) := by
  show (cfg0.win 3).cut (grid0.coords t) ((dat0 V c).after 3 t) = _
  rw [after0_3]
  unfold out0_3
  rw [View.canon_unit_zero hz]
  simp only [View.ld_unit_zero (S := S2048x1024) hz, View.ld_unit_zero (S := S2048x1) hz, View.ld_unit_zero (S := S1024x512) hz]
  obtain ⟨e0, e1, e2, e3, e4, e5, e6, e7⟩ := idx_facts t
  funext j
  obtain ⟨p, q, rfl⟩ : ∃ (p : Fin 2048) (q : Fin 512), j = ix2 p q := ⟨j 0, j 1, eq_ix2 j⟩
  refine (pay_apply (iblk0 V c 0 t) (iblk0 V c 1 t) (iblk0 V c 2 t) p q).trans ?_
  show _ = Cert.Spec.rowScaledMatmul (V c main_arg0) (V c main_v13) (V c main_arg1) (((cfg0.win 3).blk t).view.emb (ix2 p q))
  unfold Cert.Spec.rowScaledMatmul
  refine Finset.sum_congr rfl fun k _ => ?_
  have h0 : iblk0 V c 0 t (ix2 p k) = V c main_arg0 (ix2 (n0 := 65536) (n1 := 1024) (((cfg0.win 3).blk t).view.emb (ix2 p q) 0) k) := by
    show V c main_arg0 (((cfg0.win 0).blk t).view.emb (ix2 p k)) = _
    refine congrArg _ (funext fun a => Fin.ext ?_)
    match a with
    | ⟨0, _⟩ => show win0_0.index t (0 : Fin 2) * 2048 + 1 * p.val = win0_3.index t (0 : Fin 2) * 2048 + 1 * p.val; omega
    | ⟨1, _⟩ => show win0_0.index t (1 : Fin 2) * 1024 + 1 * k.val = k.val; omega
  have h1 : iblk0 V c 1 t (ix2 p (0 : Fin 1)) = V c main_v13 (ix2 (n0 := 65536) (n1 := 1) (((cfg0.win 3).blk t).view.emb (ix2 p q) 0) 0) := by
    show V c main_v13 (((cfg0.win 1).blk t).view.emb (ix2 p (0 : Fin 1))) = _
    refine congrArg _ (funext fun a => Fin.ext ?_)
    match a with
    | ⟨0, _⟩ => show win0_1.index t (0 : Fin 2) * 2048 + 1 * p.val = win0_3.index t (0 : Fin 2) * 2048 + 1 * p.val; omega
    | ⟨1, _⟩ => show win0_1.index t (1 : Fin 2) * 1 + 1 * 0 = 0; omega
  have h2 : iblk0 V c 2 t (ix2 k q) = V c main_arg1 (ix2 (n0 := 1024) (n1 := 512) k (((cfg0.win 3).blk t).view.emb (ix2 p q) 1)) := by
    show V c main_arg1 (((cfg0.win 2).blk t).view.emb (ix2 k q)) = _
    refine congrArg _ (funext fun a => Fin.ext ?_)
    match a with
    | ⟨0, _⟩ => show win0_2.index t (0 : Fin 2) * 1024 + 1 * k.val = k.val; omega
    | ⟨1, _⟩ => show win0_2.index t (1 : Fin 2) * 512 + 1 * q.val = win0_3.index t (1 : Fin 2) * 512 + 1 * q.val; omega
  rw [h0, h1, h2]

/-- An index of the result is in point `t`'s block iff each coordinate is in the block's range on its axis. -/
theorem mem_blk (t : Fin cfg0.N) (i : S65536x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v14).slice (win0_3.rect t)).set ↔ _
  rw [View.set_slice_whole, Rect.mem_set_unit]
  exact Iff.rfl

/-- The 32 row blocks tile the result: row r lies in the block of point r / 2048. -/
theorem cover (i : S65536x512.Idx) : ∃ t : Fin cfg0.N, (cfg0.win 3).flush t = true ∧ i ∈ ((cfg0.win 3).blk t).view.set := by
  have hi0 : (i 0).val < 65536 := (i 0).isLt
  have hi1 : (i 1).val < 512 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- The result array after the region: `rowScaledMatmul` of the arrays the region finds. -/
theorem final (c : Dev nD) : (dat0 V c).arrAt 3 cfg0.N
    = Cert.Spec.rowScaledMatmul (V c main_arg0) (V c main_v13) (V c main_arg1) :=
  (dat0 V c).arrAt_eq_of_cover 3 _ (fun t _ => flushed_eq V c t) cover

end Cert.KernelIdeal.Region0

end
-- ==== Proof.Region1.lean ====
/-
  Region 1 (the row-scaled product of layer 2) as ONE function of the arrays it finds.

  The grid has 32 points; point t holds rows t*2048 ... t*2048+2047 of the 65536 x 512 table and of the column of
  row factors, the whole 512 x 256 weight matrix, and writes back rows t*2048 ... of the result. Entry (p, q) of the block
  the body leaves is the sum over c of (X(p,c) * s(p,0)) * W(c,q) of ITS rows, which is the entry of
  `rowScaledMatmul` of the whole arrays at row t*2048+p; the 32 blocks tile the result, so the array ends holding
  `rowScaledMatmul` everywhere.
-/
import proofs.«168157_j4982162063670_1_alg».proof.Proof.Gen.KernelIdeal.Frame
import proofs.«168157_j4982162063670_1_alg».proof.Proof.Forms
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry of the block: the sum over the shared axis of scaled row entry times weight. -/
theorem pay_apply (x0 : Vec Ideal S2048x512 .f32) (x1 : Vec Ideal S2048x1 .f32) (x2 : Vec Ideal S512x256 .f32)
    (p : Fin 2048) (q : Fin 256) :
    k1_pay1 (F := Ideal) x0 x1 x2 (ix2 p q) = ∑ c : Fin 512, (x0 (ix2 p c) * x1 (ix2 p (0 : Fin 1))) * x2 (ix2 c q) := by
  unfold k1_pay1
  rw [shapeCast_self, shapeCast_self]
  exact Cert.Forms.body_apply _ rfl _ _ x0 x1 x2 p q

/-- Where each window's block sits at point `t`, decided over the 32 points: the table's, the column's and the result's
    blocks share their row block, every other block coordinate is 0. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 31 :=
  (by decide +kernel : ∀ t : Fin grid1.N, _)

/-- Every row block is some point's. -/
theorem idx_onto : ∀ q0 : Fin 32, ∃ t : Fin cfg1.N, win1_3.index t = ![q0.val, 0] :=
  (by decide +kernel : ∀ q0 : Fin 32, ∃ t : Fin grid1.N, win1_3.index t = ![q0.val, 0])

/-- What point `t` writes back is its block of `rowScaledMatmul` of the three arrays as the region finds them. -/
theorem flushed_eq (c : Dev nD) (t : Fin cfg1.N) :
    (dat1 V c).flushed 3 t = ((cfg1.win 3).blk t).view.read (Elt Ideal)
      (Cert.Spec.rowScaledMatmul (V c main_v36) (V c main_v37) (V c main_arg3)) := by
  show (cfg1.win 3).cut (grid1.coords t) ((dat1 V c).after 3 t) = _
  rw [after1_3]
  unfold out1_3
  rw [View.canon_unit_zero hz]
  simp only [View.ld_unit_zero (S := S2048x512) hz, View.ld_unit_zero (S := S2048x1) hz, View.ld_unit_zero (S := S512x256) hz]
  obtain ⟨e0, e1, e2, e3, e4, e5, e6, e7⟩ := idx_facts t
  funext j
  obtain ⟨p, q, rfl⟩ : ∃ (p : Fin 2048) (q : Fin 256), j = ix2 p q := ⟨j 0, j 1, eq_ix2 j⟩
  refine (pay_apply (iblk1 V c 0 t) (iblk1 V c 1 t) (iblk1 V c 2 t) p q).trans ?_
  show _ = Cert.Spec.rowScaledMatmul (V c main_v36) (V c main_v37) (V c main_arg3) (((cfg1.win 3).blk t).view.emb (ix2 p q))
  unfold Cert.Spec.rowScaledMatmul
  refine Finset.sum_congr rfl fun k _ => ?_
  have h0 : iblk1 V c 0 t (ix2 p k) = V c main_v36 (ix2 (n0 := 65536) (n1 := 512) (((cfg1.win 3).blk t).view.emb (ix2 p q) 0) k) := by
    show V c main_v36 (((cfg1.win 0).blk t).view.emb (ix2 p k)) = _
    refine congrArg _ (funext fun a => Fin.ext ?_)
    match a with
    | ⟨0, _⟩ => show win1_0.index t (0 : Fin 2) * 2048 + 1 * p.val = win1_3.index t (0 : Fin 2) * 2048 + 1 * p.val; omega
    | ⟨1, _⟩ => show win1_0.index t (1 : Fin 2) * 512 + 1 * k.val = k.val; omega
  have h1 : iblk1 V c 1 t (ix2 p (0 : Fin 1)) = V c main_v37 (ix2 (n0 := 65536) (n1 := 1) (((cfg1.win 3).blk t).view.emb (ix2 p q) 0) 0) := by
    show V c main_v37 (((cfg1.win 1).blk t).view.emb (ix2 p (0 : Fin 1))) = _
    refine congrArg _ (funext fun a => Fin.ext ?_)
    match a with
    | ⟨0, _⟩ => show win1_1.index t (0 : Fin 2) * 2048 + 1 * p.val = win1_3.index t (0 : Fin 2) * 2048 + 1 * p.val; omega
    | ⟨1, _⟩ => show win1_1.index t (1 : Fin 2) * 1 + 1 * 0 = 0; omega
  have h2 : iblk1 V c 2 t (ix2 k q) = V c main_arg3 (ix2 (n0 := 512) (n1 := 256) k (((cfg1.win 3).blk t).view.emb (ix2 p q) 1)) := by
    show V c main_arg3 (((cfg1.win 2).blk t).view.emb (ix2 k q)) = _
    refine congrArg _ (funext fun a => Fin.ext ?_)
    match a with
    | ⟨0, _⟩ => show win1_2.index t (0 : Fin 2) * 512 + 1 * k.val = k.val; omega
    | ⟨1, _⟩ => show win1_2.index t (1 : Fin 2) * 256 + 1 * q.val = win1_3.index t (1 : Fin 2) * 256 + 1 * q.val; omega
  rw [h0, h1, h2]

/-- An index of the result is in point `t`'s block iff each coordinate is in the block's range on its axis. -/
theorem mem_blk (t : Fin cfg1.N) (i : S65536x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v38).slice (win1_3.rect t)).set ↔ _
  rw [View.set_slice_whole, Rect.mem_set_unit]
  exact Iff.rfl

/-- The 32 row blocks tile the result: row r lies in the block of point r / 2048. -/
theorem cover (i : S65536x256.Idx) : ∃ t : Fin cfg1.N, (cfg1.win 3).flush t = true ∧ i ∈ ((cfg1.win 3).blk t).view.set := by
  have hi0 : (i 0).val < 65536 := (i 0).isLt
  have hi1 : (i 1).val < 256 := (i 1).isLt
  obtain ⟨t, ht⟩ := idx_onto ⟨(i 0).val / 2048, by omega⟩
  have q0 : win1_3.index t (0 : Fin 2) = (i 0).val / 2048 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 256 ≤ (i 1).val ∧ (i 1).val < win1_3.index t (1 : Fin 2) * 256 + 256; omega

/-- The result array after the region: `rowScaledMatmul` of the arrays the region finds. -/
theorem final (c : Dev nD) : (dat1 V c).arrAt 3 cfg1.N
    = Cert.Spec.rowScaledMatmul (V c main_v36) (V c main_v37) (V c main_arg3) :=
  (dat1 V c).arrAt_eq_of_cover 3 _ (fun t _ => flushed_eq V c t) cover

end Cert.KernelIdeal.Region1

end
-- ==== Proof.KernelValue.lean ====
/-
  The idealized kernel program's result as the network function of its seven argument arrays.

  The last host stretch applies the second message-passing step to region 1's result; region 1 finds the activated
  first layer, the column of out-degree factors and the second weight matrix, and leaves their row-scaled product;
  the activated first layer is the exponential linear unit of the first message-passing step applied to region 0's
  result, which is the row-scaled product of the input table, the same column and the first weight matrix. Composed,
  the result buffer holds `Cert.Spec.net` of the launch contents of the arguments.
-/
import proofs.«168157_j4982162063670_1_alg».proof.Proof.KernelRun
import proofs.«168157_j4982162063670_1_alg».proof.Proof.Region0
import proofs.«168157_j4982162063670_1_alg».proof.Proof.Region1

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result buffer's final contents: the network function of the arguments as launched. -/
theorem result_eq (c : Dev nD) :
    Gen.W7 m ρ c (Proc.devRef .tc main_v54)
      = Cert.Spec.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [Cert.KernelIdeal.Run.W7_v54 m ρ c, Cert.KernelIdeal.Region1.final (Gen.V5 m ρ) c,
    Cert.KernelIdeal.Run.V5_v36 m ρ c, Cert.KernelIdeal.Run.V5_v37 m ρ c, Cert.KernelIdeal.Run.V5_arg3 m ρ c,
    Cert.KernelIdeal.Region0.final (Gen.V1 m ρ) c,
    Cert.KernelIdeal.Run.V1_arg0 m ρ c, Cert.KernelIdeal.Run.V1_v13 m ρ c, Cert.KernelIdeal.Run.V1_arg1 m ρ c]
  rfl

/-- Every weakly fair execution of the idealized kernel program ends with the result buffer at the network function
    of the arguments and the arguments unchanged. -/
theorem run : θ_run defs (onTc (τ := τ) (main (F := Ideal))) ⟨m, fun _ => 0, ρ⟩ (fun r => ∀ c : Dev nD,
      r.2.mem ((c.tc : Thread nD τ).loc main_v54)
        = Cert.Spec.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.Run.run_named m ρ)

end Cert.KernelIdeal.Value

end
-- ==== Proof.RefRun.lean ====
/-
  The reference program's run, read back as one fold.

  The reference is a straight line of array operations: its entry function's own, with the three functions it calls
  — the exponential linear unit and the two selections inside it — substituted at their calls, each value of a
  called body held in a buffer of its own. Listed in order the operations are `ops`; the entry function is their
  sequence (`main_eq`), so every fair execution ends with each buffer holding the fold of the operations' results
  over the contents at launch (`run_main`). No operation writes an argument (`arg0_eq` … `arg6_eq`), and the fold
  at the result buffer is the two-layer graph convolution `refNet` of the seven arguments (`out_eq`), written as
  stage functions over the reference's own shapes.
-/
import proofs.«168157_j4982162063670_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the calls substituted: the two degree counts and their reciprocal
    square roots (18 operations), the first layer's scaled product (4), the wrapped gather positions, the gather and
    the scatter-add with the in-degree scaling and the bias (19), the exponential linear unit (15: the zero, its
    broadcast and the comparison, twice; the inner selection's converted zero, its broadcast and the select; the
    `expm1`, the one, its broadcast, the product; the outer select), then the second layer's scaled product (4) and
    its message passing (19). -/
abbrev ops : List (HloOp τ sig (Elt F)) :=
  [ StableHlo.nullary main_cst (constant S_ .f32 0x3F800000#32),
    StableHlo.unary main_cst main_v0 (broadcastInDim S524288 ![] bcast_S_S524288 : (⟨S_, .f32⟩ : BufTy).Contents (Elt F) → (⟨S524288, .f32⟩ : BufTy).Contents (Elt F)),
    StableHlo.nullary main_cst_0 (constant S_ .f32 0x00000000#32),
    StableHlo.unary main_cst_0 main_v1 (broadcastInDim S65536 ![] bcast_S_S65536 : (⟨S_, .f32⟩ : BufTy).Contents (Elt F) → (⟨S65536, .f32⟩ : BufTy).Contents (Elt F)),
    StableHlo.unary main_arg5 main_v2 (broadcastInDim S524288x1 ![0] bcast_S524288_S524288x1_0 : (⟨S524288, .i32⟩ : BufTy).Contents (Elt F) → (⟨S524288x1, .i32⟩ : BufTy).Contents (Elt F)),
    StableHlo.ternary main_v1 main_v2 main_v0 main_v3 ((fun x i u => Host.scatterAdd scatter_S65536_S524288x1_S524288_n_0_0_1 x i u) : (⟨S65536, .f32⟩ : BufTy).Contents (Elt F) → (⟨S524288x1, .i32⟩ : BufTy).Contents (Elt F) → (⟨S524288, .f32⟩ : BufTy).Contents (Elt F) → (⟨S65536, .f32⟩ : BufTy).Contents (Elt F)),
    StableHlo.nullary main_cst_1 (constant S_ .f32 0x3F800000#32),
    StableHlo.unary main_cst_1 main_v4 (broadcastInDim S65536 ![] bcast_S_S65536 : (⟨S_, .f32⟩ : BufTy).Contents (Elt F) → (⟨S65536, .f32⟩ : BufTy).Contents (Elt F)),
    StableHlo.binary main_v3 main_v4 main_v5 (maximumf : (⟨S65536, .f32⟩ : BufTy).Contents (Elt F) → (⟨S65536, .f32⟩ : BufTy).Contents (Elt F) → (⟨S65536, .f32⟩ : BufTy).Contents (Elt F)),
    StableHlo.nullary main_cst_2 (constant S_ .f32 0x00000000#32),
    StableHlo.unary main_cst_2 main_v6 (broadcastInDim S65536 ![] bcast_S_S65536 : (⟨S_, .f32⟩ : BufTy).Contents (Elt F) → (⟨S65536, .f32⟩ : BufTy).Contents (Elt F)),
    StableHlo.unary main_arg6 main_v7 (broadcastInDim S524288x1 ![0] bcast_S524288_S524288x1_0 : (⟨S524288, .i32⟩ : BufTy).Contents (Elt F) → (⟨S524288x1, .i32⟩ : BufTy).Contents (Elt F)),
    StableHlo.ternary main_v6 main_v7 main_v0 main_v8 ((fun x i u => Host.scatterAdd scatter_S65536_S524288x1_S524288_n_0_0_1 x i u) : (⟨S65536, .f32⟩ : BufTy).Contents (Elt F) → (⟨S524288x1, .i32⟩ : BufTy).Contents (Elt F) → (⟨S524288, .f32⟩ : BufTy).Contents (Elt F) → (⟨S65536, .f32⟩ : BufTy).Contents (Elt F)),
    StableHlo.nullary main_cst_3 (constant S_ .f32 0x3F800000#32),
    StableHlo.unary main_cst_3 main_v9 (broadcastInDim S65536 ![] bcast_S_S65536 : (⟨S_, .f32⟩ : BufTy).Contents (Elt F) → (⟨S65536, .f32⟩ : BufTy).Contents (Elt F)),
    StableHlo.binary main_v8 main_v9 main_v10 (maximumf : (⟨S65536, .f32⟩ : BufTy).Contents (Elt F) → (⟨S65536, .f32⟩ : BufTy).Contents (Elt F) → (⟨S65536, .f32⟩ : BufTy).Contents (Elt F)),
    StableHlo.unary main_v5 main_v11 (Host.rsqrt : (⟨S65536, .f32⟩ : BufTy).Contents (Elt F) → (⟨S65536, .f32⟩ : BufTy).Contents (Elt F)),
    StableHlo.unary main_v10 main_v12 (Host.rsqrt : (⟨S65536, .f32⟩ : BufTy).Contents (Elt F) → (⟨S65536, .f32⟩ : BufTy).Contents (Elt F)),
    StableHlo.unary main_v11 main_v13 (broadcastInDim S65536x1 ![0] bcast_S65536_S65536x1_0 : (⟨S65536, .f32⟩ : BufTy).Contents (Elt F) → (⟨S65536x1, .f32⟩ : BufTy).Contents (Elt F)),
    StableHlo.unary main_v13 main_v14 (broadcastInDim S65536x1024 ![0, 1] bcast_S65536x1_S65536x1024_0_1 : (⟨S65536x1, .f32⟩ : BufTy).Contents (Elt F) → (⟨S65536x1024, .f32⟩ : BufTy).Contents (Elt F)),
    StableHlo.binary main_arg0 main_v14 main_v15 (mulf : (⟨S65536x1024, .f32⟩ : BufTy).Contents (Elt F) → (⟨S65536x1024, .f32⟩ : BufTy).Contents (Elt F) → (⟨S65536x1024, .f32⟩ : BufTy).Contents (Elt F)),
    StableHlo.binary main_v15 main_arg1 main_v16 ((fun l r => Host.dotGeneral dot_S65536x1024_S1024x512_S65536x512_1_0_0_1_n_n none l r) : (⟨S65536x1024, .f32⟩ : BufTy).Contents (Elt F) → (⟨S1024x512, .f32⟩ : BufTy).Contents (Elt F) → (⟨S65536x512, .f32⟩ : BufTy).Contents (Elt F)),
    StableHlo.nullary main_c (constantI S_ 32 0#32),
    StableHlo.unary main_c main_v17 (broadcastInDim S524288 ![] bcast_S_S524288 : (⟨S_, .i32⟩ : BufTy).Contents (Elt F) → (⟨S524288, .i32⟩ : BufTy).Contents (Elt F)),
    StableHlo.binary main_arg5 main_v17 main_v18 (cmpi .slt : (⟨S524288, .i32⟩ : BufTy).Contents (Elt F) → (⟨S524288, .i32⟩ : BufTy).Contents (Elt F) → (⟨S524288, .i1⟩ : BufTy).Contents (Elt F)),
    StableHlo.nullary main_c_4 (constantI S_ 32 65536#32),
    StableHlo.unary main_c_4 main_v19 (broadcastInDim S524288 ![] bcast_S_S524288 : (⟨S_, .i32⟩ : BufTy).Contents (Elt F) → (⟨S524288, .i32⟩ : BufTy).Contents (Elt F)),
    StableHlo.binary main_arg5 main_v19 main_v20 (addi : (⟨S524288, .i32⟩ : BufTy).Contents (Elt F) → (⟨S524288, .i32⟩ : BufTy).Contents (Elt F) → (⟨S524288, .i32⟩ : BufTy).Contents (Elt F)),
    StableHlo.ternary main_v18 main_v20 main_arg5 main_v21 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v21 main_v22 (broadcastInDim S524288x1 ![0] bcast_S524288_S524288x1_0 : (⟨S524288, .i32⟩ : BufTy).Contents (Elt F) → (⟨S524288x1, .i32⟩ : BufTy).Contents (Elt F)),
    StableHlo.binary main_v16 main_v22 main_v23 ((fun x i => Host.gather gather_S65536x512_S524288x1_S524288x512_1_0_n_n_0_1_1512 x i) : (⟨S65536x512, .f32⟩ : BufTy).Contents (Elt F) → (⟨S524288x1, .i32⟩ : BufTy).Contents (Elt F) → (⟨S524288x512, .f32⟩ : BufTy).Contents (Elt F)),
    StableHlo.nullary main_cst_5 (constant S_ .f32 0x00000000#32),
    StableHlo.unary main_cst_5 main_v24 (broadcastInDim S65536x512 ![] bcast_S_S65536x512 : (⟨S_, .f32⟩ : BufTy).Contents (Elt F) → (⟨S65536x512, .f32⟩ : BufTy).Contents (Elt F)),
    StableHlo.unary main_arg6 main_v25 (broadcastInDim S524288x1 ![0] bcast_S524288_S524288x1_0 : (⟨S524288, .i32⟩ : BufTy).Contents (Elt F) → (⟨S524288x1, .i32⟩ : BufTy).Contents (Elt F)),
    StableHlo.ternary main_v24 main_v25 main_v23 main_v26 ((fun x i u => Host.scatterAdd scatter_S65536x512_S524288x1_S524288x512_1_0_0_1 x i u) : (⟨S65536x512, .f32⟩ : BufTy).Contents (Elt F) → (⟨S524288x1, .i32⟩ : BufTy).Contents (Elt F) → (⟨S524288x512, .f32⟩ : BufTy).Contents (Elt F) → (⟨S65536x512, .f32⟩ : BufTy).Contents (Elt F)),
    StableHlo.unary main_v12 main_v27 (broadcastInDim S65536x1 ![0] bcast_S65536_S65536x1_0 : (⟨S65536, .f32⟩ : BufTy).Contents (Elt F) → (⟨S65536x1, .f32⟩ : BufTy).Contents (Elt F)),
    StableHlo.unary main_v27 main_v28 (broadcastInDim S65536x512 ![0, 1] bcast_S65536x1_S65536x512_0_1 : (⟨S65536x1, .f32⟩ : BufTy).Contents (Elt F) → (⟨S65536x512, .f32⟩ : BufTy).Contents (Elt F)),
    StableHlo.binary main_v26 main_v28 main_v29 (mulf : (⟨S65536x512, .f32⟩ : BufTy).Contents (Elt F) → (⟨S65536x512, .f32⟩ : BufTy).Contents (Elt F) → (⟨S65536x512, .f32⟩ : BufTy).Contents (Elt F)),
    StableHlo.unary main_arg2 main_v30 (broadcastInDim S1x512 ![1] bcast_S512_S1x512_1 : (⟨S512, .f32⟩ : BufTy).Contents (Elt F) → (⟨S1x512, .f32⟩ : BufTy).Contents (Elt F)),
    StableHlo.unary main_v30 main_v31 (broadcastInDim S65536x512 ![0, 1] bcast_S1x512_S65536x512_0_1 : (⟨S1x512, .f32⟩ : BufTy).Contents (Elt F) → (⟨S65536x512, .f32⟩ : BufTy).Contents (Elt F)),
    StableHlo.binary main_v29 main_v31 main_v32 (addf : (⟨S65536x512, .f32⟩ : BufTy).Contents (Elt F) → (⟨S65536x512, .f32⟩ : BufTy).Contents (Elt F) → (⟨S65536x512, .f32⟩ : BufTy).Contents (Elt F)),
    StableHlo.TRef.nullary main_call0.cst (constant S_ .f32 0x00000000#32),
    StableHlo.TRef.unary main_call0.cst main_call0.v0 (broadcastInDim S65536x512 ![] bcast_S_S65536x512),
    StableHlo.TRef.binary (.of main_v32) main_call0.v0 main_call0.v1 (cmpf .ogt),
    StableHlo.TRef.nullary main_call0.cst_0 (constant S_ .f32 0x00000000#32),
    StableHlo.TRef.unary main_call0.cst_0 main_call0.v2 (broadcastInDim S65536x512 ![] bcast_S_S65536x512),
    StableHlo.TRef.binary (.of main_v32) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S65536x512 ![] bcast_S_S65536x512),
    StableHlo.TRef.ternary main_call0.v3 main_call0.call0.v1 (.of main_v32) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S65536x512 ![] bcast_S_S65536x512),
    StableHlo.TRef.binary main_call0.v6 main_call0.v5 main_call0.v7 mulf,
    StableHlo.TRef.ternary main_call0.v1 (.of main_v32) main_call0.v7 main_call0.call1.v0 select,
    StableHlo.unary main_v11 main_v34 (broadcastInDim S65536x1 ![0] bcast_S65536_S65536x1_0 : (⟨S65536, .f32⟩ : BufTy).Contents (Elt F) → (⟨S65536x1, .f32⟩ : BufTy).Contents (Elt F)),
    StableHlo.unary main_v34 main_v35 (broadcastInDim S65536x512 ![0, 1] bcast_S65536x1_S65536x512_0_1 : (⟨S65536x1, .f32⟩ : BufTy).Contents (Elt F) → (⟨S65536x512, .f32⟩ : BufTy).Contents (Elt F)),
    StableHlo.binary main_v33 main_v35 main_v36 (mulf : (⟨S65536x512, .f32⟩ : BufTy).Contents (Elt F) → (⟨S65536x512, .f32⟩ : BufTy).Contents (Elt F) → (⟨S65536x512, .f32⟩ : BufTy).Contents (Elt F)),
    StableHlo.binary main_v36 main_arg3 main_v37 ((fun l r => Host.dotGeneral dot_S65536x512_S512x256_S65536x256_1_0_0_1_n_n none l r) : (⟨S65536x512, .f32⟩ : BufTy).Contents (Elt F) → (⟨S512x256, .f32⟩ : BufTy).Contents (Elt F) → (⟨S65536x256, .f32⟩ : BufTy).Contents (Elt F)),
    StableHlo.nullary main_c_6 (constantI S_ 32 0#32),
    StableHlo.unary main_c_6 main_v38 (broadcastInDim S524288 ![] bcast_S_S524288 : (⟨S_, .i32⟩ : BufTy).Contents (Elt F) → (⟨S524288, .i32⟩ : BufTy).Contents (Elt F)),
    StableHlo.binary main_arg5 main_v38 main_v39 (cmpi .slt : (⟨S524288, .i32⟩ : BufTy).Contents (Elt F) → (⟨S524288, .i32⟩ : BufTy).Contents (Elt F) → (⟨S524288, .i1⟩ : BufTy).Contents (Elt F)),
    StableHlo.nullary main_c_7 (constantI S_ 32 65536#32),
    StableHlo.unary main_c_7 main_v40 (broadcastInDim S524288 ![] bcast_S_S524288 : (⟨S_, .i32⟩ : BufTy).Contents (Elt F) → (⟨S524288, .i32⟩ : BufTy).Contents (Elt F)),
    StableHlo.binary main_arg5 main_v40 main_v41 (addi : (⟨S524288, .i32⟩ : BufTy).Contents (Elt F) → (⟨S524288, .i32⟩ : BufTy).Contents (Elt F) → (⟨S524288, .i32⟩ : BufTy).Contents (Elt F)),
    StableHlo.ternary main_v39 main_v41 main_arg5 main_v42 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v42 main_v43 (broadcastInDim S524288x1 ![0] bcast_S524288_S524288x1_0 : (⟨S524288, .i32⟩ : BufTy).Contents (Elt F) → (⟨S524288x1, .i32⟩ : BufTy).Contents (Elt F)),
    StableHlo.binary main_v37 main_v43 main_v44 ((fun x i => Host.gather gather_S65536x256_S524288x1_S524288x256_1_0_n_n_0_1_1256 x i) : (⟨S65536x256, .f32⟩ : BufTy).Contents (Elt F) → (⟨S524288x1, .i32⟩ : BufTy).Contents (Elt F) → (⟨S524288x256, .f32⟩ : BufTy).Contents (Elt F)),
    StableHlo.nullary main_cst_8 (constant S_ .f32 0x00000000#32),
    StableHlo.unary main_cst_8 main_v45 (broadcastInDim S65536x256 ![] bcast_S_S65536x256 : (⟨S_, .f32⟩ : BufTy).Contents (Elt F) → (⟨S65536x256, .f32⟩ : BufTy).Contents (Elt F)),
    StableHlo.unary main_arg6 main_v46 (broadcastInDim S524288x1 ![0] bcast_S524288_S524288x1_0 : (⟨S524288, .i32⟩ : BufTy).Contents (Elt F) → (⟨S524288x1, .i32⟩ : BufTy).Contents (Elt F)),
    StableHlo.ternary main_v45 main_v46 main_v44 main_v47 ((fun x i u => Host.scatterAdd scatter_S65536x256_S524288x1_S524288x256_1_0_0_1 x i u) : (⟨S65536x256, .f32⟩ : BufTy).Contents (Elt F) → (⟨S524288x1, .i32⟩ : BufTy).Contents (Elt F) → (⟨S524288x256, .f32⟩ : BufTy).Contents (Elt F) → (⟨S65536x256, .f32⟩ : BufTy).Contents (Elt F)),
    StableHlo.unary main_v12 main_v48 (broadcastInDim S65536x1 ![0] bcast_S65536_S65536x1_0 : (⟨S65536, .f32⟩ : BufTy).Contents (Elt F) → (⟨S65536x1, .f32⟩ : BufTy).Contents (Elt F)),
    StableHlo.unary main_v48 main_v49 (broadcastInDim S65536x256 ![0, 1] bcast_S65536x1_S65536x256_0_1 : (⟨S65536x1, .f32⟩ : BufTy).Contents (Elt F) → (⟨S65536x256, .f32⟩ : BufTy).Contents (Elt F)),
    StableHlo.binary main_v47 main_v49 main_v50 (mulf : (⟨S65536x256, .f32⟩ : BufTy).Contents (Elt F) → (⟨S65536x256, .f32⟩ : BufTy).Contents (Elt F) → (⟨S65536x256, .f32⟩ : BufTy).Contents (Elt F)),
    StableHlo.unary main_arg4 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S65536x256 ![0, 1] bcast_S1x256_S65536x256_0_1 : (⟨S1x256, .f32⟩ : BufTy).Contents (Elt F) → (⟨S65536x256, .f32⟩ : BufTy).Contents (Elt F)),
    StableHlo.binary main_v50 main_v52 main_v53 (addf : (⟨S65536x256, .f32⟩ : BufTy).Contents (Elt F) → (⟨S65536x256, .f32⟩ : BufTy).Contents (Elt F) → (⟨S65536x256, .f32⟩ : BufTy).Contents (Elt F)) ]

-- seventy-nine binds re-associated: the rewriting under the chain recurses once per statement
set_option maxRecDepth 4096 in
set_option maxHeartbeats 4000000 in
/-- The entry function is that straight line: its two windows, the called functions' definitions unfolded at their
    calls and the records at their fields, are one chain of steps once the sequencing is re-associated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own memory only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., unary_bufs_sub .., unary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub ..⟩

/-- At the compiled mesh, for any float values, from any memory with zero counters: every weakly fair execution of
    the entry function terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are read only -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-! ## The stage functions, over the reference's own shapes -/

/-- A length-65536 vector kept as a 65536 x 1 column. -/
def colR (s : FVec F S65536 .f32) : FVec F S65536x1 .f32 :=
  broadcastInDim S65536x1 ![0] bcast_S65536_S65536x1_0 s

/-- `1 / sqrt (max (count idx) 1)` per node: the edges' endpoints `idx` counted by a scatter-add of ones into zeros. -/
def invDegR (idx : IVec S524288 32) : FVec F S65536 .f32 :=
  Host.rsqrt (F := F) (maximumf
    (Host.scatterAdd (F := F) scatter_S65536_S524288x1_S524288_n_0_0_1
      (broadcastInDim S65536 ![] bcast_S_S65536 (constant (F := F) S_ .f32 0x00000000#32))
      (broadcastInDim S524288x1 ![0] bcast_S524288_S524288x1_0 idx)
      (broadcastInDim S524288 ![] bcast_S_S524288 (constant (F := F) S_ .f32 0x3F800000#32)))
    (broadcastInDim S65536 ![] bcast_S_S65536 (constant (F := F) S_ .f32 0x3F800000#32)))

/-- A negative position counted from the end, as the gather's start positions. -/
def wrapIdxR (src : IVec S524288 32) : IVec S524288 32 :=
  select (cmpi .slt src (broadcastInDim S524288 ![] bcast_S_S524288 (constantI S_ 32 0#32)))
    (addi src (broadcastInDim S524288 ![] bcast_S_S524288 (constantI S_ 32 65536#32))) src

/-- Message passing on 512 columns: rows of `M` gathered at the sources, added at the destinations, each row scaled
    by `sIn`, the bias row `b` added. -/
def aggR512 (M : FVec F S65536x512 .f32) (src dst : IVec S524288 32) (sIn : FVec F S65536 .f32) (b : FVec F S512 .f32) :
    FVec F S65536x512 .f32 :=
  addf (mulf
      (Host.scatterAdd (F := F) scatter_S65536x512_S524288x1_S524288x512_1_0_0_1
        (broadcastInDim S65536x512 ![] bcast_S_S65536x512 (constant (F := F) S_ .f32 0x00000000#32))
        (broadcastInDim S524288x1 ![0] bcast_S524288_S524288x1_0 dst)
        (Host.gather gather_S65536x512_S524288x1_S524288x512_1_0_n_n_0_1_1512 M
          (broadcastInDim S524288x1 ![0] bcast_S524288_S524288x1_0 (wrapIdxR src))))
      (broadcastInDim S65536x512 ![0, 1] bcast_S65536x1_S65536x512_0_1 (colR sIn)))
    (broadcastInDim S65536x512 ![0, 1] bcast_S1x512_S65536x512_0_1 (broadcastInDim S1x512 ![1] bcast_S512_S1x512_1 b))

/-- The same on 256 columns. -/
def aggR256 (M : FVec F S65536x256 .f32) (src dst : IVec S524288 32) (sIn : FVec F S65536 .f32) (b : FVec F S256 .f32) :
    FVec F S65536x256 .f32 :=
  addf (mulf
      (Host.scatterAdd (F := F) scatter_S65536x256_S524288x1_S524288x256_1_0_0_1
        (broadcastInDim S65536x256 ![] bcast_S_S65536x256 (constant (F := F) S_ .f32 0x00000000#32))
        (broadcastInDim S524288x1 ![0] bcast_S524288_S524288x1_0 dst)
        (Host.gather gather_S65536x256_S524288x1_S524288x256_1_0_n_n_0_1_1256 M
          (broadcastInDim S524288x1 ![0] bcast_S524288_S524288x1_0 (wrapIdxR src))))
      (broadcastInDim S65536x256 ![0, 1] bcast_S65536x1_S65536x256_0_1 (colR sIn)))
    (broadcastInDim S65536x256 ![0, 1] bcast_S1x256_S65536x256_0_1 (broadcastInDim S1x256 ![1] bcast_S256_S1x256_1 b))

/-- The exponential linear unit as the reference spells it: `x` where `x > 0`, elsewhere `1 * expm1 y` with
    `y` the entry `x` where `x > 0` fails and zero (converted to its own format, broadcast) where it holds. -/
def eluR (x : FVec F S65536x512 .f32) : FVec F S65536x512 .f32 :=
  select (cmpf .ogt x (broadcastInDim S65536x512 ![] bcast_S_S65536x512 (constant (F := F) S_ .f32 0x00000000#32))) x
    (mulf (broadcastInDim S65536x512 ![] bcast_S_S65536x512 (constant (F := F) S_ .f32 0x3F800000#32))
      (Host.expm1 (F := F)
        (select (cmpf .ogt x (broadcastInDim S65536x512 ![] bcast_S_S65536x512 (constant (F := F) S_ .f32 0x00000000#32)))
          (broadcastInDim S65536x512 ![] bcast_S_S65536x512 (id (constant (F := F) S_ .f32 0x00000000#32))) x)))

/-- The whole network as one function of the seven argument arrays: each layer scales the rows by the out-degree
    factor, multiplies by the weights and passes messages along the edges; the exponential linear unit between. -/
def refNet (h : FVec F S65536x1024 .f32) (W1 : FVec F S1024x512 .f32) (b1 : FVec F S512 .f32) (W2 : FVec F S512x256 .f32)
    (b2 : FVec F S256 .f32) (src dst : IVec S524288 32) : FVec F S65536x256 .f32 :=
  aggR256 (Host.dotGeneral dot_S65536x512_S512x256_S65536x256_1_0_0_1_n_n none
      (mulf (eluR (aggR512 (Host.dotGeneral dot_S65536x1024_S1024x512_S65536x512_1_0_0_1_n_n none
          (mulf h (broadcastInDim S65536x1024 ![0, 1] bcast_S65536x1_S65536x1024_0_1 (colR (invDegR src)))) W1) src dst (invDegR dst) b1))
        (broadcastInDim S65536x512 ![0, 1] bcast_S65536x1_S65536x512_0_1 (colR (invDegR src)))) W2) src dst (invDegR dst) b2

/-! ## The result -/

attribute [local irreducible] Host.scatterAdd Host.gather Host.rsqrt Host.expm1 in
set_option maxRecDepth 8192 in
set_option maxHeartbeats 4000000 in
/-- The fold at the result buffer is `refNet` of the arguments: each operation's result read at its own buffer is
    its function applied to its operands' contents, at any other buffer what was there; composed along the line
    these are the stage functions' texts. The gather, the scatter-add, the matrix product, the reciprocal square
    root and `expm1` stay folded: the equation never looks inside them. -/
theorem out_eq (V : Valuation τ sig (Elt F)) :
    after ops V (main_v53 : DevRef τ sig)
      = refNet (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

end Cert.ReferenceIdeal.RefRun

end
-- ==== Proof.LibElu.lean ====
/-
  The exponential linear unit in its two spellings, entry by entry over the extended reals.

  One program writes `x` where `x > 0` and `exp x - 1` elsewhere. The other writes `x` where `x > 0` and elsewhere
  `1 * expm1 y`, with `y` the entry where it is not positive and `0` where it is (a guard that only matters for rounding).
  Over the extended reals `expm1 y = exp y - 1`; where `x > 0` both give `x`; elsewhere `y = x`, and the float word
  0x3F800000 is 1, so `1 * (exp x - 1) = exp x - 1`.
-/
import Idealize.ShloMosaic.Lib.ValueIdx
import Idealize.ShloMosaic.PureOps.Ideal
import Idealize.ShloMosaic.PureOps.Ideal.Laws

noncomputable section

namespace Cert.LibElu

open Idealize.ShloMosaic Idealize.ShloMosaic.ValueIdx

/-- The float word 0x3F800000 is 1. -/
theorem one_word : Ideal.ofBits .f32 0x3F800000#32 = 1 := by
  simp [Ideal.ofBits, Ideal.ieee, -EReal.coe_mul]; norm_num

/-- One entry: under any one-bit condition `b`, "x if b else 1 * (exp (0 if b else x) - 1)" is
    "x if b else exp x - 1" (the second with the word for 1 subtracted). -/
theorem elu_scalar (b : BitVec 1) (x z : EReal) :
    Scalar.select b x (Ideal.ofBits .f32 0x3F800000#32 * (Ideal.exp (Scalar.select b z x) - 1))
      = Scalar.select b x (Ideal.exp x - Ideal.ofBits .f32 0x3F800000#32) := by
  by_cases h : b = 1#1
  · subst h; rw [select_one, select_one]
  · have h0 := eq_zero_of_ne_one h
    subst h0
    rw [select_zero, select_zero, select_zero, one_word, one_mul]

end Cert.LibElu

end
-- ==== Proof.Bridge.lean ====
/-
  The reference's network, stage by stage, is the specification's.

  The reference spreads the column of out-degree factors over the table with a broadcast and contracts with a
  dot_general: entry by entry that is `rowScaledMatmul` (Forms). Its exponential linear unit, spelled with expm1
  under a guard and a factor 1, is the unit spelled with the exponential (LibElu). Its degree factors and its
  message-passing steps are the same host operations on the same shapes with the same dimension numbers, so they
  are the specification's stage functions as they stand.
-/
import proofs.«168157_j4982162063670_1_alg».proof.Proof.RefRun
import proofs.«168157_j4982162063670_1_alg».proof.Proof.Spec
import proofs.«168157_j4982162063670_1_alg».proof.Proof.Forms
import proofs.«168157_j4982162063670_1_alg».proof.Proof.LibElu

noncomputable section

namespace Cert.Bridge

open Idealize.ShloMosaic Idealize.ShloMosaic.TcCoe Idealize.ShloMosaic.ValueIdx Idealize.ShloMosaic.StableHlo

/-- The two spellings of the exponential linear unit agree entry by entry over the extended reals. -/
theorem elu_eq (x : FVec Ideal Cert.KernelIdeal.S65536x512 .f32) :
    Cert.ReferenceIdeal.RefRun.eluR (F := Ideal) x = Cert.Spec.elu (F := Ideal) x := by
  funext i
  exact Cert.LibElu.elu_scalar _ _ _

/-- The reference's network is the specification's, as functions of the seven arrays over the extended reals. -/
theorem refNet_eq (h : FVec Ideal Cert.KernelIdeal.S65536x1024 .f32) (W1 : FVec Ideal Cert.KernelIdeal.S1024x512 .f32)
    (b1 : FVec Ideal Cert.KernelIdeal.S512 .f32) (W2 : FVec Ideal Cert.KernelIdeal.S512x256 .f32)
    (b2 : FVec Ideal Cert.KernelIdeal.S256 .f32) (src dst : IVec Cert.KernelIdeal.S524288 32) :
    Cert.ReferenceIdeal.RefRun.refNet (F := Ideal) h W1 b1 W2 b2 src dst = Cert.Spec.net h W1 b1 W2 b2 src dst := by
  unfold Cert.ReferenceIdeal.RefRun.refNet Cert.Spec.net
  rw [Cert.Forms.host_eq Cert.ReferenceIdeal.dot_S65536x512_S512x256_S65536x256_1_0_0_1_n_n rfl,
    Cert.Forms.host_eq Cert.ReferenceIdeal.dot_S65536x1024_S1024x512_S65536x512_1_0_0_1_n_n rfl, elu_eq]
  rfl

/-- The reference's result buffer after its operations: the specification's network of the argument buffers. -/
theorem ref_value (V : Valuation Cert.ReferenceIdeal.τ Cert.ReferenceIdeal.sig (Elt Ideal)) :
    after (Cert.ReferenceIdeal.RefRun.ops (F := Ideal)) V (Cert.ReferenceIdeal.main_v53 : DevRef Cert.ReferenceIdeal.τ Cert.ReferenceIdeal.sig)
      = Cert.Spec.net (V (Cert.ReferenceIdeal.main_arg0 : DevRef Cert.ReferenceIdeal.τ Cert.ReferenceIdeal.sig))
          (V (Cert.ReferenceIdeal.main_arg1 : DevRef Cert.ReferenceIdeal.τ Cert.ReferenceIdeal.sig))
          (V (Cert.ReferenceIdeal.main_arg2 : DevRef Cert.ReferenceIdeal.τ Cert.ReferenceIdeal.sig))
          (V (Cert.ReferenceIdeal.main_arg3 : DevRef Cert.ReferenceIdeal.τ Cert.ReferenceIdeal.sig))
          (V (Cert.ReferenceIdeal.main_arg4 : DevRef Cert.ReferenceIdeal.τ Cert.ReferenceIdeal.sig))
          (V (Cert.ReferenceIdeal.main_arg5 : DevRef Cert.ReferenceIdeal.τ Cert.ReferenceIdeal.sig))
          (V (Cert.ReferenceIdeal.main_arg6 : DevRef Cert.ReferenceIdeal.τ Cert.ReferenceIdeal.sig)) :=
  (Cert.ReferenceIdeal.RefRun.out_eq V).trans (refNet_eq _ _ _ _ _ _ _)

end Cert.Bridge

end
-- ==== Proof.lean ====
/-
  The certificate of a two-layer graph convolution: a program that computes each layer's row-scaled product
  `(X * s) W` in a tiled kernel (32 row blocks, operands narrowed to a shorter float format on the way into the
  contraction) against a reference that computes it with one host product.

  Over the extended reals a change of float format is the identity and a contraction into zero is the plain sum, so
  each kernel region leaves `rowScaledMatmul` of the arrays it finds (Region0, Region1: entry (p, q) of block t is the
  sum over c of (X(t*2048+p, c) * s(t*2048+p, 0)) * W(c, q), and the 32 blocks tile the result), which is also what the
  reference's broadcast, product and dot_general compute (Forms). Everything around the regions — the degree counts by
  scatter-add, their reciprocal square roots, the gather along the edges' sources, the scatter-add at their
  destinations, the scaling and the bias — is the same host operations in both programs, applied to equal arrays, and
  is carried as stage functions that are never opened (Spec). The exponential linear unit between the layers is
  spelled with `exp x - 1` in one program and with `1 * expm1` under a guard in the other: equal entry by entry
  (LibElu). Both programs' result buffers therefore end at `Cert.Spec.net` of the seven arguments (KernelValue,
  Bridge). No law of the extended reals that could fail at an infinity is used, so the precondition is not opened.

  The frames of the two kernel programs are the generated ones; the reference's frame is its run (RefRun) read at the
  argument buffers, which no operation writes. The idealization rewrote nothing, so its statement is trivial.
-/
import proofs.«168157_j4982162063670_1_alg».proof.Defs
import proofs.«168157_j4982162063670_1_alg».proof.Proof.Gen.Kernel
import proofs.«168157_j4982162063670_1_alg».proof.Proof.Gen.Kernel.Frame
import proofs.«168157_j4982162063670_1_alg».proof.Proof.Gen.KernelIdeal
import proofs.«168157_j4982162063670_1_alg».proof.Proof.Gen.KernelIdeal.Frame
import proofs.«168157_j4982162063670_1_alg».proof.Proof.Gen.ReferenceIdeal
import proofs.«168157_j4982162063670_1_alg».proof.Proof.Gen.Pre_finite_inputs
import proofs.«168157_j4982162063670_1_alg».proof.Proof.KernelValue
import proofs.«168157_j4982162063670_1_alg».proof.Proof.RefRun
import proofs.«168157_j4982162063670_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates without a fault, and no operation of it writes an argument. -/
theorem frame_ri : Cert.frame_ReferenceIdeal := fun m ρ _ =>
  (θ_run Cert.ReferenceIdeal.defs _ _).mono (fun _ h c =>
      ⟨(h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _),
       (h c Cert.ReferenceIdeal.main_arg5).trans (Cert.ReferenceIdeal.RefRun.arg5_eq _),
       (h c Cert.ReferenceIdeal.main_arg6).trans (Cert.ReferenceIdeal.RefRun.arg6_eq _)⟩)
    (Cert.ReferenceIdeal.RefRun.run_main (F := Ideal) m ρ)

theorem preserves : Cert.preserves_Kernel_KernelIdeal := trivial

/-- Both idealized programs end with their result buffer at the network function of the arguments; the arguments
    agree, so the results are equal. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨?_,
       (h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _),
       (h c Cert.ReferenceIdeal.main_arg5).trans (Cert.ReferenceIdeal.RefRun.arg5_eq _),
       (h c Cert.ReferenceIdeal.main_arg6).trans (Cert.ReferenceIdeal.RefRun.arg6_eq _)⟩)
    (Cert.ReferenceIdeal.RefRun.run_main (F := Ideal) m' ρ')
  obtain ⟨e0, e1, e2, e3, e4, e5, e6⟩ := hagree c
  refine (h c Cert.ReferenceIdeal.main_v53).trans ((Cert.Bridge.ref_value _).trans ?_)
  show Cert.Spec.net (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
